-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S500000 : Shape := ⟨1, ![500000]⟩
abbrev S500000x16 : Shape := ⟨2, ![500000, 16]⟩
abbrev S256x128 : Shape := ⟨2, ![256, 128]⟩
abbrev S256 : Shape := ⟨1, ![256]⟩
abbrev S256x256 : Shape := ⟨2, ![256, 256]⟩
abbrev S256x528 : Shape := ⟨2, ![256, 528]⟩
abbrev S1x256 : Shape := ⟨2, ![1, 256]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S500000 : S_.BroadcastsInDim S500000 (![] : Fin 0 → Fin S500000.rank)
  reducesTo_S500000_S_d0 : S500000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x528 : S_.BroadcastsInDim S256x528 (![] : Fin 0 → Fin S256x528.rank)
  reducesTo_S256x528_S_d0_1 : S256x528.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1x256 .f32) (main_arg15 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1x256 .f32 := Host.absf main_arg14
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S256 .f32) (main_arg11 : FVec F S256x256 .f32) (main_arg12 : FVec F S256x528 .f32) (main_arg13 : FVec F S256 .f32) (main_arg14 : FVec F S1x256 .f32) (main_arg15 : FVec F S1 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg11
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x528 .f32 := Host.absf main_arg12
  let main_cst_16 : FVec F S_ .f32 := constant S_ .f32 0x7F800000#32
  let main_v45 : FVec F S256x528 .f32 := broadcastInDim S256x528 ![] bcast_S_S256x528 main_cst_16
  let main_v46 : IVec S256x528 1 := cmpf .olt main_v44 main_v45
  let main_c_17 : IVec S_ 1 := constantI S_ 1 1#1
  let main_v47 : IVec S_ 1 := (fun x v => Host.reduce IntOp.andi x v reducesTo_S256x528_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_v48 main_v49 main_v50

def fn_part1 {F : FTy → Type} [FloatOps F] (main_arg7 : FVec F S256 .f32) (main_arg8 : FVec F S256x128 .f32) (main_arg9 : FVec F S256x256 .f32) (main_arg10 : FVec F S256 .f32) (main_arg11 : FVec F S256x256 .f32) (main_arg12 : FVec F S256x528 .f32) (main_arg13 : FVec F S256 .f32) (main_arg14 : FVec F S1x256 .f32) (main_arg15 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg8
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S2x800000 32) (main_arg2 : IVec S500000 32) (main_arg3 : IVec S500000 32) (main_arg4 : FVec F S500000x16 .f32) (main_arg5 : FVec F S500000 .f32) (main_arg6 : FVec F S256x128 .f32) (main_arg7 : FVec F S256 .f32) (main_arg8 : FVec F S256x128 .f32) (main_arg9 : FVec F S256x256 .f32) (main_arg10 : FVec F S256 .f32) (main_arg11 : FVec F S256x256 .f32) (main_arg12 : FVec F S256x528 .f32) (main_arg13 : FVec F S256 .f32) (main_arg14 : FVec F S1x256 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x16 .f32 := Host.absf main_arg4
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S500000 .f32 := Host.absf main_arg5
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S500000 : Shape := ⟨1, ![500000]⟩
abbrev S500000x16 : Shape := ⟨2, ![500000, 16]⟩
abbrev S256x128 : Shape := ⟨2, ![256, 128]⟩
abbrev S256 : Shape := ⟨1, ![256]⟩
abbrev S256x256 : Shape := ⟨2, ![256, 256]⟩
abbrev S256x528 : Shape := ⟨2, ![256, 528]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x256 : Shape := ⟨2, ![128, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S500000x1 : Shape := ⟨2, ![500000, 1]⟩
abbrev S500000x256 : Shape := ⟨2, ![500000, 256]⟩
abbrev S256x16 : Shape := ⟨2, ![256, 16]⟩
abbrev S16x256 : Shape := ⟨2, ![16, 256]⟩
abbrev S256x1 : Shape := ⟨2, ![256, 1]⟩
abbrev S1x1 : Shape := ⟨2, ![1, 1]⟩
abbrev S4000x256 : Shape := ⟨2, ![4000, 256]⟩
abbrev S4000x16 : Shape := ⟨2, ![4000, 16]⟩
abbrev S4000x1 : Shape := ⟨2, ![4000, 1]⟩

abbrev nBuf : Space → Nat
  | .hbm => 107
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S500000, .i32⟩
  | .hbm, ⟨3, _⟩ => ⟨S500000, .i32⟩
  | .hbm, ⟨4, _⟩ => ⟨S500000x16, .f32⟩
  | .hbm, ⟨5, _⟩ => ⟨S500000, .f32⟩
  | .hbm, ⟨6, _⟩ => ⟨S256x128, .f32⟩
  | .hbm, ⟨7, _⟩ => ⟨S256, .f32⟩
  | .hbm, ⟨8, _⟩ => ⟨S256x128, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x528, .f32⟩
  | .hbm, ⟨13, _⟩ => ⟨S256, .f32⟩
  | .hbm, ⟨14, _⟩ => ⟨S1x256, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S128x256, .f32⟩
  | .hbm, ⟨46, _⟩ => ⟨S128x256, .bf16⟩
  | .hbm, ⟨47, _⟩ => ⟨S128x256, .f32⟩
  | .hbm, ⟨48, _⟩ => ⟨S128x256, .bf16⟩
  | .hbm, ⟨49, _⟩ => ⟨S1x256, .f32⟩
  | .hbm, ⟨50, _⟩ => ⟨S50000x256, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .bf16⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S256x256, .f32⟩
  | .hbm, ⟨68, _⟩ => ⟨S256x256, .bf16⟩
  | .hbm, ⟨69, _⟩ => ⟨S256x256, .f32⟩
  | .hbm, ⟨70, _⟩ => ⟨S256x256, .bf16⟩
  | .hbm, ⟨71, _⟩ => ⟨S1x256, .f32⟩
  | .hbm, ⟨72, _⟩ => ⟨S50000x256, .bf16⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x256, .bf16⟩
  | .hbm, ⟨82, _⟩ => ⟨S_, .i32⟩
  | .hbm, ⟨83, _⟩ => ⟨S500000, .i32⟩
  | .hbm, ⟨84, _⟩ => ⟨S500000, .i1⟩
  | .hbm, ⟨85, _⟩ => ⟨S_, .i32⟩
  | .hbm, ⟨86, _⟩ => ⟨S500000, .i32⟩
  | .hbm, ⟨87, _⟩ => ⟨S500000, .i32⟩
  | .hbm, ⟨88, _⟩ => ⟨S500000, .i32⟩
  | .hbm, ⟨89, _⟩ => ⟨S500000x1, .i32⟩
  | .hbm, ⟨90, _⟩ => ⟨S500000x256, .bf16⟩
  | .hbm, ⟨91, _⟩ => ⟨S256x256, .f32⟩
  | .hbm, ⟨92, _⟩ => ⟨S256x256, .f32⟩
  | .hbm, ⟨93, _⟩ => ⟨S256x16, .f32⟩
  | .hbm, ⟨94, _⟩ => ⟨S500000x1, .f32⟩
  | .hbm, ⟨95, _⟩ => ⟨S256x256, .f32⟩
  | .hbm, ⟨96, _⟩ => ⟨S256x256, .bf16⟩
  | .hbm, ⟨97, _⟩ => ⟨S256x256, .f32⟩
  | .hbm, ⟨98, _⟩ => ⟨S256x256, .bf16⟩
  | .hbm, ⟨99, _⟩ => ⟨S16x256, .f32⟩
  | .hbm, ⟨100, _⟩ => ⟨S16x256, .bf16⟩
  | .hbm, ⟨101, _⟩ => ⟨S256x1, .f32⟩
  | .hbm, ⟨102, _⟩ => ⟨S256x1, .bf16⟩
  | .hbm, ⟨103, _⟩ => ⟨S1x256, .f32⟩
  | .hbm, ⟨104, _⟩ => ⟨S1x1, .f32⟩
  | .hbm, ⟨105, _⟩ => ⟨S500000x1, .f32⟩
  | .hbm, ⟨106, _⟩ => ⟨S500000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S2000x256, .bf16⟩
  | .local _ .vmem, ⟨8, _⟩ => ⟨S2000x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .bf16⟩
  | .local _ .vmem, ⟨12, _⟩ => ⟨S2000x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S2000x256, .bf16⟩
  | .local _ .vmem, ⟨17, _⟩ => ⟨S2000x256, .bf16⟩
  | .local _ .vmem, ⟨18, _⟩ => ⟨S4000x256, .bf16⟩
  | .local _ .vmem, ⟨19, _⟩ => ⟨S4000x256, .bf16⟩
  | .local _ .vmem, ⟨20, _⟩ => ⟨S4000x256, .bf16⟩
  | .local _ .vmem, ⟨21, _⟩ => ⟨S4000x256, .bf16⟩
  | .local _ .vmem, ⟨22, _⟩ => ⟨S4000x16, .f32⟩
  | .local _ .vmem, ⟨23, _⟩ => ⟨S4000x16, .f32⟩
  | .local _ .vmem, ⟨24, _⟩ => ⟨S4000x1, .f32⟩
  | .local _ .vmem, ⟨25, _⟩ => ⟨S4000x1, .f32⟩
  | .local _ .vmem, ⟨26, _⟩ => ⟨S256x256, .bf16⟩
  | .local _ .vmem, ⟨27, _⟩ => ⟨S256x256, .bf16⟩
  | .local _ .vmem, ⟨28, _⟩ => ⟨S16x256, .bf16⟩
  | .local _ .vmem, ⟨29, _⟩ => ⟨S1x256, .f32⟩
  | .local _ .vmem, ⟨30, _⟩ => ⟨S256x1, .bf16⟩
  | .local _ .vmem, ⟨31, _⟩ => ⟨S1x1, .f32⟩
  | .local _ .vmem, ⟨32, _⟩ => ⟨S4000x1, .f32⟩
  | .local _ .vmem, ⟨33, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x1 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S500000 : S_.BroadcastsInDim S500000 (![] : Fin 0 → Fin S500000.rank)
  bcast_S500000_S500000x1_0 : S500000.BroadcastsInDim S500000x1 (![0] : Fin 1 → Fin S500000x1.rank)
  slices_S256x528_S256x256_0_0 : S256x528.Slices ![0, 0] S256x256
  slices_S256x528_S256x256_0_256 : S256x528.Slices ![0, 256] S256x256
  slices_S256x528_S256x16_0_512 : S256x528.Slices ![0, 512] S256x16
  shapeCasts_S500000_S500000x1 : S500000.ShapeCasts S500000x1
  transposes_S256x16_S16x256_1_0 : S256x16.Transposes [1, 0] S16x256
  transposes_S1x256_S256x1_1_0 : S1x256.Transposes [1, 0] S256x1
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x16_S4000x16_0_0 : ∀ a, (![0, 0] : Fin 2 → Nat) a + S4000x16.size a ≤ S4000x16.size a
  h_S4000x16 : 0 < S4000x16.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  broadcasts_S1x256_S4000x256 : S1x256.Broadcasts S4000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S500000x1_S500000 : S500000x1.ShapeCasts S500000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  gather_S50000x256_S500000x1_S500000x256_1_0_n_n_0_1_1256_wf : GatherDims.WF S50000x256 S500000x1 S500000x256 [1] [0] [] [0] [] 1 ![1, 256]
  dot_S4000x256_S256x256_S4000x256_1_0_0_1_n_n_wf : DotDims.WF S4000x256 S256x256 S4000x256 [1] [0] [0] [1] [] []
  dot_S4000x16_S16x256_S4000x256_1_0_0_1_n_n_wf : DotDims.WF S4000x16 S16x256 S4000x256 [1] [0] [0] [1] [] []
  dot_S4000x256_S256x1_S4000x1_1_0_0_1_n_n_wf : DotDims.WF S4000x256 S256x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .bf16 = 32 ∨ (Rect.block (s := S50000x256) S2000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S500000x256.size a
  hwx2_0 : ∀ i : grid2.Coords, EltTy.bits .bf16 = 32 ∨ (Rect.block (s := S500000x256) S4000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S500000x256.size a
  hwx2_1 : ∀ i : grid2.Coords, EltTy.bits .bf16 = 32 ∨ (Rect.block (s := S500000x256) S4000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S500000x16.size a
  hwx2_2 : ∀ i : grid2.Coords, EltTy.bits .f32 = 32 ∨ (Rect.block (s := S500000x16) S4000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S500000x1.size a
  hwx2_3 : ∀ i : grid2.Coords, EltTy.bits .f32 = 32 ∨ (Rect.block (s := S500000x1) S4000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x256.size a ≤ S16x256.size a
  hwx2_6 : ∀ i : grid2.Coords, EltTy.bits .bf16 = 32 ∨ (Rect.block (s := S16x256) S16x256.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x1.size a ≤ S256x1.size a
  hwx2_8 : ∀ i : grid2.Coords, EltTy.bits .bf16 = 32 ∨ (Rect.block (s := S256x1) S256x1.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x1.size a ≤ S500000x1.size a
  hwx2_10 : ∀ i : grid2.Coords, EltTy.bits .f32 = 32 ∨ (Rect.block (s := S500000x1) S4000x1.size (cc2_transform_10 i) (hinb2_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x16_S16x256_S4000x256_1_0_0_1_n_n : DotDims S4000x16 S16x256 S4000x256 where
  lhsContracting := [1]
  rhsContracting := [0]
  lhsNonContracting := [0]
  rhsNonContracting := [1]
  lhsBatch := []
  rhsBatch := []
  wf := dot_S4000x16_S16x256_S4000x256_1_0_0_1_n_n_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S4000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v67) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S16x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v74) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v73) S256x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v75) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v76) S4000x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S500000 : Shape := ⟨1, ![500000]⟩
abbrev S500000x16 : Shape := ⟨2, ![500000, 16]⟩
abbrev S256x128 : Shape := ⟨2, ![256, 128]⟩
abbrev S256 : Shape := ⟨1, ![256]⟩
abbrev S256x256 : Shape := ⟨2, ![256, 256]⟩
abbrev S256x528 : Shape := ⟨2, ![256, 528]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S800000x256 : Shape := ⟨2, ![800000, 256]⟩
abbrev S500000x1 : Shape := ⟨2, ![500000, 1]⟩
abbrev S500000x256 : Shape := ⟨2, ![500000, 256]⟩
abbrev S500000x528 : Shape := ⟨2, ![500000, 528]⟩
abbrev S528x256 : Shape := ⟨2, ![528, 256]⟩
abbrev S256x1 : Shape := ⟨2, ![256, 1]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S500000, .i32⟩
  | .hbm, ⟨3, _⟩ => ⟨S500000, .i32⟩
  | .hbm, ⟨4, _⟩ => ⟨S500000x16, .f32⟩
  | .hbm, ⟨5, _⟩ => ⟨S500000, .f32⟩
  | .hbm, ⟨6, _⟩ => ⟨S256x128, .f32⟩
  | .hbm, ⟨7, _⟩ => ⟨S256, .f32⟩
  | .hbm, ⟨8, _⟩ => ⟨S256x128, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x528, .f32⟩
  | .hbm, ⟨13, _⟩ => ⟨S256, .f32⟩
  | .hbm, ⟨14, _⟩ => ⟨S1x256, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S128x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x256, .f32⟩
  | .hbm, ⟨80, _⟩ => ⟨S50000x256, .f32⟩
  | .hbm, ⟨81, _⟩ => ⟨S256x256, .f32⟩
  | .hbm, ⟨82, _⟩ => ⟨S50000x256, .f32⟩
  | .hbm, ⟨83, _⟩ => ⟨S1x256, .f32⟩
  | .hbm, ⟨84, _⟩ => ⟨S50000x256, .f32⟩
  | .hbm, ⟨85, _⟩ => ⟨S50000x256, .f32⟩
  | .hbm, ⟨86, _⟩ => ⟨S256x256, .f32⟩
  | .hbm, ⟨87, _⟩ => ⟨S50000x256, .f32⟩
  | .hbm, ⟨88, _⟩ => ⟨S50000x256, .f32⟩
  | .hbm, ⟨89, _⟩ => ⟨S_, .f32⟩
  | .hbm, ⟨90, _⟩ => ⟨S50000x256, .f32⟩
  | .hbm, ⟨91, _⟩ => ⟨S50000x256, .f32⟩
  | .hbm, ⟨92, _⟩ => ⟨S_, .i32⟩
  | .hbm, ⟨93, _⟩ => ⟨S500000, .i32⟩
  | .hbm, ⟨94, _⟩ => ⟨S500000, .i1⟩
  | .hbm, ⟨95, _⟩ => ⟨S_, .i32⟩
  | .hbm, ⟨96, _⟩ => ⟨S500000, .i32⟩
  | .hbm, ⟨97, _⟩ => ⟨S500000, .i32⟩
  | .hbm, ⟨98, _⟩ => ⟨S500000, .i32⟩
  | .hbm, ⟨99, _⟩ => ⟨S500000x1, .i32⟩
  | .hbm, ⟨100, _⟩ => ⟨S500000x256, .f32⟩
  | .hbm, ⟨101, _⟩ => ⟨S_, .i32⟩
  | .hbm, ⟨102, _⟩ => ⟨S500000, .i32⟩
  | .hbm, ⟨103, _⟩ => ⟨S500000, .i1⟩
  | .hbm, ⟨104, _⟩ => ⟨S_, .i32⟩
  | .hbm, ⟨105, _⟩ => ⟨S500000, .i32⟩
  | .hbm, ⟨106, _⟩ => ⟨S500000, .i32⟩
  | .hbm, ⟨107, _⟩ => ⟨S500000, .i32⟩
  | .hbm, ⟨108, _⟩ => ⟨S500000x1, .i32⟩
  | .hbm, ⟨109, _⟩ => ⟨S500000x256, .f32⟩
  | .hbm, ⟨110, _⟩ => ⟨S500000x528, .f32⟩
  | .hbm, ⟨111, _⟩ => ⟨S528x256, .f32⟩
  | .hbm, ⟨112, _⟩ => ⟨S500000x256, .f32⟩
  | .hbm, ⟨113, _⟩ => ⟨S1x256, .f32⟩
  | .hbm, ⟨114, _⟩ => ⟨S500000x256, .f32⟩
  | .hbm, ⟨115, _⟩ => ⟨S500000x256, .f32⟩
  | .hbm, ⟨116, _⟩ => ⟨S_, .f32⟩
  | .hbm, ⟨117, _⟩ => ⟨S500000x256, .f32⟩
  | .hbm, ⟨118, _⟩ => ⟨S500000x256, .f32⟩
  | .hbm, ⟨119, _⟩ => ⟨S256x1, .f32⟩
  | .hbm, ⟨120, _⟩ => ⟨S500000x1, .f32⟩
  | .hbm, ⟨121, _⟩ => ⟨S1x1, .f32⟩
  | .hbm, ⟨122, _⟩ => ⟨S500000x1, .f32⟩
  | .hbm, ⟨123, _⟩ => ⟨S500000x1, .f32⟩
  | .hbm, ⟨124, _⟩ => ⟨S500000, .f32⟩
  | .hbm, ⟨125, _⟩ => ⟨S500000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_c_10 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_12 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x16_S500000x528_d1 : Shape.Concatenates [S500000x256, S500000x256, S500000x16] S500000x528 1
  transposes_S256x528_S528x256_1_0 : S256x528.Transposes [1, 0] S528x256
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S1x256_S256x1_1_0 : S1x256.Transposes [1, 0] S256x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  gather_S50000x256_S500000x1_S500000x256_1_0_n_n_0_1_1256_wf : GatherDims.WF S50000x256 S500000x1 S500000x256 [1] [0] [] [0] [] 1 ![1, 256]
  dot_S500000x528_S528x256_S500000x256_1_0_0_1_n_n_wf : DotDims.WF S500000x528 S528x256 S500000x256 [1] [0] [0] [1] [] []
  dot_S500000x256_S256x1_S500000x1_1_0_0_1_n_n_wf : DotDims.WF S500000x256 S256x1 S500000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S500000x528_S528x256_S500000x256_1_0_0_1_n_n : DotDims S500000x528 S528x256 S500000x256 where
  lhsContracting := [1]
  rhsContracting := [0]
  lhsNonContracting := [0]
  rhsNonContracting := [1]
  lhsBatch := []
  rhsBatch := []
  wf := dot_S500000x528_S528x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.KernelRun.lean ====
/-
  The idealized kernel's run with its RESULT named.  @main is four stretches of host operations around three
  grid-launched regions; the buffer contents at each boundary are a fold from the launch memory (a stretch applies its
  operations; a region replaces each of its arrays by what its write-backs leave).  Every weakly fair execution
  terminates without a fault in a state whose unscoped buffers hold the last fold: in particular the result buffer
  holds the last stretch's value, and the sixteen argument arrays are as launched.
-/
import proofs.«128267_j13993003450942_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last fold's
    contents and every argument array as launched. -/
theorem run : θ_run defs (onTc (τ := τ) (main (F := F))) ⟨m, fun _ => 0, ρ⟩ (fun r => ∀ c : Dev nD,
      r.2.mem ((c.tc : Thread nD τ).loc main_v77) = W7 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v77 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.RunValue

end
-- ==== Proof.Spec.lean ====
/-
  The mathematics of the two-layer mean-aggregation graph network with an edge scorer, on the extended reals, entry by entry.

  A LAYER maps aggregated neighbour rows `A` and root rows `X` (both [N, K]) to [N, 256]:
  entry (r, j) is  max(⟨A r, Wl j⟩ + b j + ⟨X r, Wr j⟩, 0).  One program adds the bias between the two inner
  products and holds the weights as [256, K]; the other holds them transposed as [K, 256], adds the two inner products
  first and the bias row (a [1, 256] array) last.  Addition on the extended reals is commutative and associative
  (a commutative monoid; no infinity is cancelled), so the two orders agree: `layerTAt_eq`, `layerT_eq`.

  The EDGE SCORER maps, for each pair p, the concatenated row z p = [hu p | hv p | ea p] of length 528 = 256 + 256 + 16 to
  le p + (Σ_j max(⟨z p, W1 j⟩ + b1 j, 0) · W2 j + b2).  One program forms ⟨z p, W1 j⟩ as ONE sum over 528 columns;
  the other as three sums over the column ranges [0, 256), [256, 512), [512, 528) of W1 (held transposed, piece by piece).
  A finite sum in a commutative monoid splits over such a partition of its index range: `sum_split528`, `headTAt_eq`.
  Nothing here needs an entry to be finite.
-/
import Idealize.ShloMosaic.PureOps.Ideal
import Idealize.ShloMosaic.Lib.ValueIdx

noncomputable section

open scoped BigOperators

namespace Cert.GraphSage

open Idealize.ShloMosaic Idealize.ShloMosaic.ValueIdx

/-- A rank-2 array of extended reals with literal extents. -/
abbrev Arr2 (a b : Nat) : Type := (⟨2, ![a, b]⟩ : Shape).Idx → EReal
/-- A rank-1 array of extended reals with a literal extent. -/
abbrev Arr1 (a : Nat) : Type := (⟨1, ![a]⟩ : Shape).Idx → EReal

/-- Entry (r, j) of one layer, weights transposed ([K, 256]), the two inner products added first and the bias row last. -/
def layerTAt (N K : Nat) (A X : Arr2 N K) (WlT WrT : Arr2 K 256) (B : Arr2 1 256) (r : Fin N) (j : Fin 256) : EReal :=
  max (((∑ k : Fin K, A (ix2 r k) * WlT (ix2 k j)) + ∑ k : Fin K, X (ix2 r k) * WrT (ix2 k j)) + B (ix2 (0 : Fin 1) j)) 0

/-- Entry (r, j) of one layer, weights as [256, K], the bias added between the two inner products. -/
def layerAt (N K : Nat) (A X : Arr2 N K) (Wl Wr : Arr2 256 K) (b : Arr1 256) (r : Fin N) (j : Fin 256) : EReal :=
  max (((∑ k : Fin K, A (ix2 r k) * Wl (ix2 j k)) + b (ix1 j)) + ∑ k : Fin K, X (ix2 r k) * Wr (ix2 j k)) 0

/-- The layer as an array, transposed-weight form. -/
def layerT (N K : Nat) (A X : Arr2 N K) (WlT WrT : Arr2 K 256) (B : Arr2 1 256) : Arr2 N 256 :=
  fun i => layerTAt N K A X WlT WrT B (i 0) (i 1)

/-- The layer as an array, bias-in-the-middle form. -/
def layer (N K : Nat) (A X : Arr2 N K) (Wl Wr : Arr2 256 K) (b : Arr1 256) : Arr2 N 256 :=
  fun i => layerAt N K A X Wl Wr b (i 0) (i 1)

/-- The two orders of one layer agree entry by entry: transposition renames indices, and `(s + t) + c = (s + c) + t`. -/
theorem layerTAt_eq (N K : Nat) (A X : Arr2 N K) (WlT WrT : Arr2 K 256) (B : Arr2 1 256) (Wl Wr : Arr2 256 K) (b : Arr1 256)
    (hl : ∀ (k : Fin K) (j : Fin 256), WlT (ix2 k j) = Wl (ix2 j k))
    (hr : ∀ (k : Fin K) (j : Fin 256), WrT (ix2 k j) = Wr (ix2 j k))
    (hb : ∀ j : Fin 256, B (ix2 (0 : Fin 1) j) = b (ix1 j)) (r : Fin N) (j : Fin 256) :
    layerTAt N K A X WlT WrT B r j = layerAt N K A X Wl Wr b r j := by
  simp only [layerTAt, layerAt, hl, hr, hb]
  rw [add_right_comm]

/-- The same for the whole arrays. -/
theorem layerT_eq (N K : Nat) (A X : Arr2 N K) (WlT WrT : Arr2 K 256) (B : Arr2 1 256) (Wl Wr : Arr2 256 K) (b : Arr1 256)
    (hl : ∀ (k : Fin K) (j : Fin 256), WlT (ix2 k j) = Wl (ix2 j k))
    (hr : ∀ (k : Fin K) (j : Fin 256), WrT (ix2 k j) = Wr (ix2 j k))
    (hb : ∀ j : Fin 256, B (ix2 (0 : Fin 1) j) = b (ix1 j)) :
    layerT N K A X WlT WrT B = layer N K A X Wl Wr b :=
  funext fun i => layerTAt_eq N K A X WlT WrT B Wl Wr b hl hr hb (i 0) (i 1)

/-- A sum over 528 = 256 + 256 + 16 terms is the sum of the sums over its three consecutive ranges. -/
theorem sum_split528 {M : Type*} [AddCommMonoid M] (f : Fin 528 → M) :
    ∑ k : Fin 528, f k
      = ((∑ k : Fin 256, f ⟨k.val, by omega⟩) + ∑ k : Fin 256, f ⟨256 + k.val, by omega⟩)
        + ∑ k : Fin 16, f ⟨512 + k.val, by omega⟩ := by
  have h := Fin.sum_univ_add (M := M) (a := 256 + 256) (b := 16) (fun k => f ⟨k.val, by omega⟩)
  have h' := Fin.sum_univ_add (M := M) (a := 256) (b := 256) (fun k => f ⟨k.val, by omega⟩)
  simp only [Fin.val_castAdd, Fin.val_natAdd] at h h'
  rw [← h']
  exact h

/-- Entry (p, c) of the scorer, W1 in three transposed pieces, the three inner products added in turn, then the bias
    row; the second weight as a column [256, 1]; the offset `LE` (a column [P, 1]) added last. -/
def headTAt (P : Nat) (HU HV : Arr2 P 256) (EA : Arr2 P 16) (LE : Arr2 P 1) (W1uT W1vT : Arr2 256 256) (W1eT : Arr2 16 256)
    (B1 : Arr2 1 256) (W2T : Arr2 256 1) (B2 : Arr2 1 1) (p : Fin P) (c : Fin 1) : EReal :=
  ((∑ j : Fin 256,
      max ((((∑ k : Fin 256, HU (ix2 p k) * W1uT (ix2 k j)) + ∑ k : Fin 256, HV (ix2 p k) * W1vT (ix2 k j))
             + ∑ k : Fin 16, EA (ix2 p k) * W1eT (ix2 k j))
            + B1 (ix2 (0 : Fin 1) j)) 0
        * W2T (ix2 j c))
    + B2 (ix2 (0 : Fin 1) c))
  + LE (ix2 p c)

/-- Entry p of the scorer over the concatenated rows `Z` ([P, 528]) and the untransposed weights, the offset `le` added first. -/
def headAt (P : Nat) (Z : Arr2 P 528) (le : Arr1 P) (W1 : Arr2 256 528) (b1 : Arr1 256) (W2 : Arr2 1 256) (b2 : Arr1 1)
    (p : Fin P) : EReal :=
  le (ix1 p)
  + ((∑ j : Fin 256, max ((∑ k : Fin 528, Z (ix2 p k) * W1 (ix2 j k)) + b1 (ix1 j)) 0 * W2 (ix2 (0 : Fin 1) j))
     + b2 (ix1 (0 : Fin 1)))

/-- The scorer as a column array [P, 1], piecewise form. -/
def headT (P : Nat) (HU HV : Arr2 P 256) (EA : Arr2 P 16) (LE : Arr2 P 1) (W1uT W1vT : Arr2 256 256) (W1eT : Arr2 16 256)
    (B1 : Arr2 1 256) (W2T : Arr2 256 1) (B2 : Arr2 1 1) : Arr2 P 1 :=
  fun i => headTAt P HU HV EA LE W1uT W1vT W1eT B1 W2T B2 (i 0) (i 1)

/-- The scorer as a flat array [P], concatenated form. -/
def head (P : Nat) (Z : Arr2 P 528) (le : Arr1 P) (W1 : Arr2 256 528) (b1 : Arr1 256) (W2 : Arr2 1 256) (b2 : Arr1 1) : Arr1 P :=
  fun p => headAt P Z le W1 b1 W2 b2 (p 0)

/-- The two forms of the scorer agree at every pair `p`, when `Z` is the concatenation of the three row blocks and the
    transposed pieces are the three column ranges of `W1`. -/
theorem headTAt_eq (P : Nat) (HU HV : Arr2 P 256) (EA : Arr2 P 16) (LE : Arr2 P 1) (W1uT W1vT : Arr2 256 256) (W1eT : Arr2 16 256)
    (B1 : Arr2 1 256) (W2T : Arr2 256 1) (B2 : Arr2 1 1)
    (Z : Arr2 P 528) (le : Arr1 P) (W1 : Arr2 256 528) (b1 : Arr1 256) (W2 : Arr2 1 256) (b2 : Arr1 1)
    (hzu : ∀ (p : Fin P) (k : Fin 256), Z (ix2 p (⟨k.val, by omega⟩ : Fin 528)) = HU (ix2 p k))
    (hzv : ∀ (p : Fin P) (k : Fin 256), Z (ix2 p (⟨256 + k.val, by omega⟩ : Fin 528)) = HV (ix2 p k))
    (hze : ∀ (p : Fin P) (k : Fin 16), Z (ix2 p (⟨512 + k.val, by omega⟩ : Fin 528)) = EA (ix2 p k))
    (hu : ∀ (k : Fin 256) (j : Fin 256), W1uT (ix2 k j) = W1 (ix2 j (⟨k.val, by omega⟩ : Fin 528)))
    (hv : ∀ (k : Fin 256) (j : Fin 256), W1vT (ix2 k j) = W1 (ix2 j (⟨256 + k.val, by omega⟩ : Fin 528)))
    (he : ∀ (k : Fin 16) (j : Fin 256), W1eT (ix2 k j) = W1 (ix2 j (⟨512 + k.val, by omega⟩ : Fin 528)))
    (hb1 : ∀ j : Fin 256, B1 (ix2 (0 : Fin 1) j) = b1 (ix1 j))
    (hw2 : ∀ (j : Fin 256) (c : Fin 1), W2T (ix2 j c) = W2 (ix2 (0 : Fin 1) j))
    (hb2 : ∀ c : Fin 1, B2 (ix2 (0 : Fin 1) c) = b2 (ix1 (0 : Fin 1)))
    (hle : ∀ (p : Fin P) (c : Fin 1), LE (ix2 p c) = le (ix1 p))
    (p : Fin P) (c : Fin 1) :
    headTAt P HU HV EA LE W1uT W1vT W1eT B1 W2T B2 p c = headAt P Z le W1 b1 W2 b2 p := by
  simp only [headTAt, headAt, hu, hv, he, hb1, hw2, hb2, hle]
  rw [add_comm]
  refine congrArg (fun s => le (ix1 p) + (s + b2 (ix1 (0 : Fin 1)))) ?_
  refine Finset.sum_congr rfl fun j _ => ?_
  refine congrArg (fun s => max (s + b1 (ix1 j)) 0 * W2 (ix2 (0 : Fin 1) j)) ?_
  rw [sum_split528 (fun k => Z (ix2 p k) * W1 (ix2 j k))]
  simp only [hzu, hzv, hze]

end Cert.GraphSage

end
-- ==== Proof.Glue0.lean ====
/-
  What the first region finds in its arrays.  Before the first region the host computes, from the node features, the
  edge list and the first layer's weights: the in-degree counts (a scatter-add of ones, floored at one), the
  neighbour means (gather by source, scatter-add by target, divided by the counts), the two weight matrices transposed,
  and the bias as a row.  The neighbour-mean array, the source and target lists and the count column are the very
  compositions of host operations the reference applies; a transposed weight read at (k, j) is the weight at (j, k);
  the bias row read at (0, j) is the bias at j.
-/
import proofs.«128267_j13993003450942_2_alg».proof.Proof.Gen.KernelIdeal.Frame
import proofs.«128267_j13993003450942_2_alg».proof.Proof.Gen.ReferenceIdeal.Read
import Idealize.ShloMosaic.Lib.ValueLayout
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The neighbour means of the node features, as the first region finds them, are the reference's. -/
theorem agg1 :
    (W1 m ρ c (Proc.devRef .tc main_v22) : S50000x128.Idx → EReal)
      = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

/-- The edges' source nodes, as a flat list, are the reference's. -/
theorem src1 :
    (W1 m ρ c (Proc.devRef .tc main_v1) : S800000.Idx → BitVec 32) = Cert.ReferenceIdeal.Read.val_main_v1 (F := Ideal) (m ((c : Thread nD τ).loc main_arg1)) := by
  show StableHlo.after hostOps0 (W0 m ρ c) (Proc.devRef .tc main_v1) = _
  after_results_simp
  rfl

/-- The edges' target nodes, as a flat list, are the reference's. -/
theorem dst1 :
    (W1 m ρ c (Proc.devRef .tc main_v3) : S800000.Idx → BitVec 32) = Cert.ReferenceIdeal.Read.val_main_v3 (F := Ideal) (m ((c : Thread nD τ).loc main_arg1)) := by
  show StableHlo.after hostOps0 (W0 m ρ c) (Proc.devRef .tc main_v3) = _
  after_results_simp
  rfl

/-- The in-degree counts floored at one, as a column, are the reference's. -/
theorem cnt1 :
    (W1 m ρ c (Proc.devRef .tc main_v10) : S50000x1.Idx → EReal) = Cert.ReferenceIdeal.Read.val_main_v20 (F := Ideal) (m ((c : Thread nD τ).loc main_arg1)) := by
  show StableHlo.after hostOps0 (W0 m ρ c) (Proc.devRef .tc main_v10) = _
  after_results_simp
  rfl

/-- The node features are as launched when the first region starts. -/
theorem x_kept1 : W1 m ρ c (Proc.devRef .tc main_arg0) = (m ((c : Thread nD τ).loc main_arg0)) := by
  show StableHlo.after hostOps0 (W0 m ρ c) (Proc.devRef .tc main_arg0) = _
  after_results_simp

/-- The first layer's neighbour weight, transposed: entry (k, j) is the weight's entry (j, k). -/
theorem wl1 (k : Fin 128) (j : Fin 256) :
    (W1 m ρ c (Proc.devRef .tc main_v24) : S128x256.Idx → EReal) (ix2 k j) = (m ((c : Thread nD τ).loc main_arg6)) (ix2 j k) := by
  have h : (W1 m ρ c (Proc.devRef .tc main_v24) : S128x256.Idx → EReal)
      = transpose S128x256 [1, 0] (m ((c : Thread nD τ).loc main_arg6)) transposes_S256x128_S128x256_1_0 := by
    show StableHlo.after hostOps0 (W0 m ρ c) (Proc.devRef .tc main_v24) = _
    after_results_simp
    rfl
  exact (congrFun h (ix2 k j)).trans (transpose_ix2_apply (m ((c : Thread nD τ).loc main_arg6)) transposes_S256x128_S128x256_1_0 k j)

/-- The first layer's root weight, transposed: entry (k, j) is the weight's entry (j, k). -/
theorem wr1 (k : Fin 128) (j : Fin 256) :
    (W1 m ρ c (Proc.devRef .tc main_v26) : S128x256.Idx → EReal) (ix2 k j) = (m ((c : Thread nD τ).loc main_arg8)) (ix2 j k) := by
  have h : (W1 m ρ c (Proc.devRef .tc main_v26) : S128x256.Idx → EReal)
      = transpose S128x256 [1, 0] (m ((c : Thread nD τ).loc main_arg8)) transposes_S256x128_S128x256_1_0 := by
    show StableHlo.after hostOps0 (W0 m ρ c) (Proc.devRef .tc main_v26) = _
    after_results_simp
    rfl
  exact (congrFun h (ix2 k j)).trans (transpose_ix2_apply (m ((c : Thread nD τ).loc main_arg8)) transposes_S256x128_S128x256_1_0 k j)

/-- The first layer's bias as a row: entry (0, j) is the bias at j. -/
theorem bl1 (j : Fin 256) :
    (W1 m ρ c (Proc.devRef .tc main_v27) : S1x256.Idx → EReal) (ix2 (0 : Fin 1) j) = (m ((c : Thread nD τ).loc main_arg7)) (ix1 j) := by
  have h : (W1 m ρ c (Proc.devRef .tc main_v27) : S1x256.Idx → EReal)
      = shapeCast S1x256 (m ((c : Thread nD τ).loc main_arg7)) shapeCasts_S256_S1x256 := by
    show StableHlo.after hostOps0 (W0 m ρ c) (Proc.devRef .tc main_v27) = _
    after_results_simp
    rfl
  exact (congrFun h (ix2 (0 : Fin 1) j)).trans (shapeCast_a_1a_apply (m ((c : Thread nD τ).loc main_arg7)) shapeCasts_S256_S1x256 (0 : Fin 1) j)

end Cert.KernelIdeal.Glue

end
-- ==== Proof.Conv1.lean ====
/-
  The value of the first layer's region of the idealized kernel: the array its 25 grid points leave is the layer of
  `Spec.lean` (`Cert.GraphSage.layerT`) applied to the five arrays the region stages, as the region finds them.

  The road: the body's matrix product read at an index is an inner product over the 128 contracted columns; the body's
  stored value at (p, j) is max((⟨a0 p, w0 j⟩ + ⟨a1 p, w1 j⟩) + b j, 0), the changes of float format being the identity
  on the extended reals; point t's blocks of the two row-blocked inputs are rows 2000 t … 2000 t + 1999 of their arrays
  and its blocks of the weights and the bias row are the whole arrays; so what point t writes back is block t of the
  layer; the 25 blocks cover the 50000 rows (row r lies in the block of point r / 2000).
-/
import proofs.«128267_j13993003450942_2_alg».proof.Proof.Spec
import proofs.«128267_j13993003450942_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Conv1

open Cert.KernelIdeal Cert.KernelIdeal.Gen Idealize.ShloMosaic Idealize.ShloMosaic.TcCoe Idealize.SL.Sem
open Idealize.ShloMosaic.ValueIdx
open Idealize.ShloMosaic.Pipeline (Dat)
open Cert.GraphSage

/-! ## The matrix product of the body, read at an index -/

/-- The dimension numbers of the body's two matrix products: [2000, 128] by [128, 256], contracting the 128 axis. -/
abbrev dotA : DotDims S2000x128 S128x256 S2000x256 := dot_S2000x128_S128x256_S2000x256_1_0_0_1_n_n

theorem lhs_0 (i : S2000x256.Idx) (q : dotA.contr.Idx) : (dotA.lhsIdx i q 0).val = (i 0).val := by
  unfold DotDims.lhsIdx
  rw [dif_neg (show ¬(0 : Fin S2000x128.rank) ∈ dotA.lhsBatch by decide), dif_pos (show (0 : Fin S2000x128.rank) ∈ dotA.lhsNonContracting by decide)]
  rfl
theorem lhs_1 (i : S2000x256.Idx) (q : dotA.contr.Idx) : (dotA.lhsIdx i q 1).val = (q ⟨0, by decide⟩).val :=
  dotA.lhsIdx_val_of_single rfl i q
theorem rhs_0 (i : S2000x256.Idx) (q : dotA.contr.Idx) : (dotA.rhsIdx i q 0).val = (q ⟨0, by decide⟩).val :=
  dotA.rhsIdx_val_of_single rfl i q
theorem rhs_1 (i : S2000x256.Idx) (q : dotA.contr.Idx) : (dotA.rhsIdx i q 1).val = (i 1).val := by
  unfold DotDims.rhsIdx
  rw [dif_neg (show ¬(1 : Fin S128x256.rank) ∈ dotA.rhsBatch by decide), dif_pos (show (1 : Fin S128x256.rank) ∈ dotA.rhsNonContracting by decide)]
  rfl

/-- The matrix product into the zero accumulator, read at (p, j): the inner product of row p of the left factor with
    column j of the right one. -/
theorem matmul_at (l : FVec Ideal S2000x128 .bf16) (w : FVec Ideal S128x256 .bf16) (p : Fin 2000) (j : Fin 256) :
    FloatOps.matmul dotA none l w (constant (F := Ideal) S2000x256 .f32 0x00000000#32) (ix2 p j)
      = ∑ k : Fin 128, l (ix2 p k) * w (ix2 k j) := by
  rw [Ideal.matmul_constant_zero_apply, ← Equiv.sum_comp (contrEquiv1 dotA 128 rfl rfl).symm]
  refine Finset.sum_congr rfl fun k _ => ?_
  have hk := contrEquiv1_symm_val dotA 128 rfl rfl k
  have el : dotA.lhsIdx (ix2 p j) ((contrEquiv1 dotA 128 rfl rfl).symm k) = ix2 p k := funext fun a => Fin.ext (by
    match a with
    | ⟨0, _⟩ => exact lhs_0 _ _
    | ⟨1, _⟩ => exact (lhs_1 _ _).trans hk)
  have er : dotA.rhsIdx (ix2 p j) ((contrEquiv1 dotA 128 rfl rfl).symm k) = ix2 k j := funext fun a => Fin.ext (by
    match a with
    | ⟨0, _⟩ => exact (rhs_0 _ _).trans hk
    | ⟨1, _⟩ => exact rhs_1 _ _)
  rw [el, er]

/-! ## The body's payload at an index -/

/-- Entry (p, j) of what the body stores, from the five blocks it loads: the two inner products added, the bias row
    added, the maximum with zero taken; the changes of float format are the identity on the extended reals. -/
theorem pay_at (x0 x1 : Vec Ideal S2000x128 .f32) (x2 x3 : Vec Ideal S128x256 .bf16) (x4 : Vec Ideal S1x256 .f32)
    (p : Fin 2000) (j : Fin 256) :
    k0_pay1 (F := Ideal) x0 x1 x2 x3 x4 (ix2 p j)
      = max (((∑ k : Fin 128, x0 (ix2 p k) * x2 (ix2 k j)) + ∑ k : Fin 128, x1 (ix2 p k) * x3 (ix2 k j))
              + x4 (ix2 (0 : Fin 1) j)) 0 := by
  unfold k0_pay1
  simp only [shapeCast_self]
  refine congrArg₂ max (congrArg₂ (· + ·) (congrArg₂ (· + ·) ?_ ?_) ?_) Ideal.ofBits_zero_f32
  · exact matmul_at _ _ p j
  · exact matmul_at _ _ p j
  · exact broadcastTo_1b_ab_apply _ _ p j
/-! ## From blocks to the array -/

theorem hz : (![0, 0] : Fin 2 → Nat) = fun _ => 0 := funext fun a => by fin_cases a <;> rfl

/-- The printed index maps over the 25 grid points: the two row-blocked inputs and the output sit at block (t, 0), the
    two weight matrices and the bias row at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of point t's block of the aggregated rows is row 2000 t + p of the array. -/
theorem read_agg (c : Dev nD) (t : Fin cfg0.N) (p : Fin 2000) (k : Fin 128) (i : S50000x128.Idx)
    (h0 : (i 0).val = t.val * 2000 + p.val) (h1 : (i 1).val = k.val) :
    (iblk0 (F := Ideal) V c 0 t : Vec Ideal S2000x128 .f32) (ix2 p k) = (V c main_v22 : S50000x128.Idx → EReal) i := by
  obtain ⟨e0, e1, -⟩ := index_facts t
  unfold iblk0
  rw [View.read_apply]
  show V c main_v22 _ = V c main_v22 _
  refine congrArg (V c main_v22) (funext fun a => Fin.ext ?_)
  match a with
  | ⟨0, _⟩ => show win0_0.index t (0 : Fin 2) * 2000 + 1 * p.val = (i 0).val; rw [e0, h0]; omega
  | ⟨1, _⟩ => show win0_0.index t (1 : Fin 2) * 128 + 1 * k.val = (i 1).val; rw [e1, h1]; omega

/-- Row p of point t's block of the root rows is row 2000 t + p of the array. -/
theorem read_root (c : Dev nD) (t : Fin cfg0.N) (p : Fin 2000) (k : Fin 128) (i : S50000x128.Idx)
    (h0 : (i 0).val = t.val * 2000 + p.val) (h1 : (i 1).val = k.val) :
    (iblk0 (F := Ideal) V c 1 t : Vec Ideal S2000x128 .f32) (ix2 p k) = (V c main_arg0 : S50000x128.Idx → EReal) i := by
  obtain ⟨-, -, e0, e1, -⟩ := index_facts t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * p.val = (i 0).val; rw [e0, h0]; omega
  | ⟨1, _⟩ => show win0_1.index t (1 : Fin 2) * 128 + 1 * k.val = (i 1).val; rw [e1, h1]; omega

/-- Every point's block of the first weight matrix is the whole matrix. -/
theorem read_wl (c : Dev nD) (t : Fin cfg0.N) (k : Fin 128) (j : Fin 256) :
    (iblk0 (F := Ideal) V c 2 t : Vec Ideal S128x256 .bf16) (ix2 k j) = (V c main_v24 : S128x256.Idx → EReal) (ix2 k j) := by
  obtain ⟨-, -, -, -, e0, e1, -⟩ := index_facts t
  unfold iblk0
  rw [View.read_apply]
  show V c main_v24 _ = V c main_v24 _
  refine congrArg (V c main_v24) (funext fun a => Fin.ext ?_)
  match a with
  | ⟨0, _⟩ => show win0_2.index t (0 : Fin 2) * 128 + 1 * k.val = k.val; rw [e0]; omega
  | ⟨1, _⟩ => show win0_2.index t (1 : Fin 2) * 256 + 1 * j.val = j.val; rw [e1]; omega

/-- Every point's block of the second weight matrix is the whole matrix. -/
theorem read_wr (c : Dev nD) (t : Fin cfg0.N) (k : Fin 128) (j : Fin 256) :
    (iblk0 (F := Ideal) V c 3 t : Vec Ideal S128x256 .bf16) (ix2 k j) = (V c main_v26 : S128x256.Idx → EReal) (ix2 k j) := by
  obtain ⟨-, -, -, -, -, -, e0, e1, -⟩ := index_facts t
  unfold iblk0
  rw [View.read_apply]
  show V c main_v26 _ = V c main_v26 _
  refine congrArg (V c main_v26) (funext fun a => Fin.ext ?_)
  match a with
  | ⟨0, _⟩ => show win0_3.index t (0 : Fin 2) * 128 + 1 * k.val = k.val; rw [e0]; omega
  | ⟨1, _⟩ => show win0_3.index t (1 : Fin 2) * 256 + 1 * j.val = j.val; rw [e1]; omega

/-- Every point's block of the bias row is the whole row. -/
theorem read_bias (c : Dev nD) (t : Fin cfg0.N) (j : Fin 256) :
    (iblk0 (F := Ideal) V c 4 t : Vec Ideal S1x256 .f32) (ix2 (0 : Fin 1) j) = (V c main_v27 : S1x256.Idx → EReal) (ix2 (0 : Fin 1) j) := by
  obtain ⟨-, -, -, -, -, -, -, -, e0, e1, -⟩ := index_facts t
  unfold iblk0
  rw [View.read_apply]
  show V c main_v27 _ = V c main_v27 _
  refine congrArg (V c main_v27) (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 256 + 1 * j.val = j.val; rw [e1]; omega

/-- Entry (p, j) of the body's result on five blocks is entry (r, j) of the layer on five arrays, when row p of the two
    row blocks is row r of their arrays and the weight and bias blocks are their arrays. -/
theorem entry_eq (A X : Arr2 50000 128) (Wl Wr : Arr2 128 256) (B : Arr2 1 256)
    (a0 a1 : Vec Ideal S2000x128 .f32) (w0 w1 : Vec Ideal S128x256 .bf16) (b : Vec Ideal S1x256 .f32)
    (p : Fin 2000) (j : Fin 256) (r : Fin 50000) (j' : Fin 256) (hj : j'.val = j.val)
    (hA : ∀ k : Fin 128, a0 (ix2 p k) = A (ix2 r k)) (hX : ∀ k : Fin 128, a1 (ix2 p k) = X (ix2 r k))
    (hWl : ∀ k : Fin 128, w0 (ix2 k j) = Wl (ix2 k j)) (hWr : ∀ k : Fin 128, w1 (ix2 k j) = Wr (ix2 k j))
    (hB : b (ix2 (0 : Fin 1) j) = B (ix2 (0 : Fin 1) j)) :
    k0_pay1 (F := Ideal) a0 a1 w0 w1 b (ix2 p j) = layerTAt 50000 128 A X Wl Wr B r j' := by
  obtain rfl : j' = j := Fin.ext hj
  rw [pay_at]
  unfold layerTAt
  simp only [hA, hX, hWl, hWr, hB]

/-- What point t writes back is block t of the layer of the five arrays as the region finds them. -/
theorem flushed_eq (c : Dev nD) (t : Fin cfg0.N) :
    (dat0 (F := Ideal) V c).flushed 5 t
      = ((cfg0.win 5).blk t).view.read (Elt Ideal)
          (layerT 50000 128 (V c main_v22) (V c main_arg0) (V c main_v24) (V c main_v26) (V c main_v27)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext y
  obtain ⟨p, j, rfl⟩ : ∃ (p : Fin 2000) (j : Fin 256), y = ix2 p j := ⟨y 0, y 1, eq_ix2 y⟩
  obtain ⟨-, -, -, -, -, -, -, -, -, -, e0, e1⟩ := index_facts t
  have hr : ((((cfg0.win 5).blk t).view.emb (ix2 p j)) (0 : Fin 2)).val = t.val * 2000 + p.val := by
    show win0_5.index t (0 : Fin 2) * 2000 + 1 * p.val = _
    rw [e0]; omega
  have hc : ((((cfg0.win 5).blk t).view.emb (ix2 p j)) (1 : Fin 2)).val = j.val := by
    show win0_5.index t (1 : Fin 2) * 256 + 1 * j.val = _
    rw [e1]; omega
  show k0_pay1 (F := Ideal) (iblk0 V c 0 t) (iblk0 V c 1 t) (iblk0 V c 2 t) (iblk0 V c 3 t) (iblk0 V c 4 t) (ix2 p j)
      = layerTAt 50000 128 (V c main_v22) (V c main_arg0) (V c main_v24) (V c main_v26) (V c main_v27)
          ((((cfg0.win 5).blk t).view.emb (ix2 p j)) (0 : Fin 2)) ((((cfg0.win 5).blk t).view.emb (ix2 p j)) (1 : Fin 2))
  exact entry_eq (V c main_v22) (V c main_arg0) (V c main_v24) (V c main_v26) (V c main_v27)
    (iblk0 V c 0 t) (iblk0 V c 1 t) (iblk0 V c 2 t) (iblk0 V c 3 t) (iblk0 V c 4 t) p j
    ((((cfg0.win 5).blk t).view.emb (ix2 p j)) (0 : Fin 2)) ((((cfg0.win 5).blk t).view.emb (ix2 p j)) (1 : Fin 2)) hc
    (fun k => read_agg V c t p k (ix2 ((((cfg0.win 5).blk t).view.emb (ix2 p j)) (0 : Fin 2)) k) hr rfl)
    (fun k => read_root V c t p k (ix2 ((((cfg0.win 5).blk t).view.emb (ix2 p j)) (0 : Fin 2)) k) hr rfl)
    (fun k => read_wl V c t k j) (fun k => read_wr V c t k j) (read_bias V c t j)

/-- An index of the array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v28).slice (win0_5.rect t)).set ↔ _
  rw [View.set_slice_whole, Rect.mem_set_unit]
  exact Iff.rfl

/-- Every index of the array lies in some point's block: row r in that of point r / 2000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, -, -, -, -, e0, e1⟩ := index_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- THE ARRAY the first layer's region leaves: the layer of the five arrays as the region finds them. -/
theorem final (c : Dev nD) :
    (dat0 (F := Ideal) V c).arrAt 5 cfg0.N
      = layerT 50000 128 (V c main_v22) (V c main_arg0) (V c main_v24) (V c main_v26) (V c main_v27) :=
  (dat0 (F := Ideal) V c).arrAt_eq_of_cover 5
    (layerT 50000 128 (V c main_v22) (V c main_arg0) (V c main_v24) (V c main_v26) (V c main_v27))
    (fun t _ => flushed_eq V c t) cover

end Cert.KernelIdeal.Conv1

end
-- ==== Proof.Conv2.lean ====
/-
  The value of the second layer's region of the idealized kernel: the array its 25 grid points leave is the layer of
  `Spec.lean` (`Cert.GraphSage.layerT`) applied to the five arrays the region stages, as the region finds them.

  The road: the body's matrix product read at an index is an inner product over the 256 contracted columns; the body's
  stored value at (p, j) is max((⟨a0 p, w0 j⟩ + ⟨a1 p, w1 j⟩) + b j, 0), the changes of float format being the identity
  on the extended reals (here the second row block arrives already in the narrow format and is only re-laid); point t's blocks of the two row-blocked inputs are rows 2000 t … 2000 t + 1999 of their arrays
  and its blocks of the weights and the bias row are the whole arrays; so what point t writes back is block t of the
  layer; the 25 blocks cover the 50000 rows (row r lies in the block of point r / 2000).
-/
import proofs.«128267_j13993003450942_2_alg».proof.Proof.Spec
import proofs.«128267_j13993003450942_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Conv2

open Cert.KernelIdeal Cert.KernelIdeal.Gen Idealize.ShloMosaic Idealize.ShloMosaic.TcCoe Idealize.SL.Sem
open Idealize.ShloMosaic.ValueIdx
open Idealize.ShloMosaic.Pipeline (Dat)
open Cert.GraphSage

/-! ## The matrix product of the body, read at an index -/

/-- The dimension numbers of the body's two matrix products: [2000, 256] by [256, 256], contracting the 256 axis. -/
abbrev dotB : DotDims S2000x256 S256x256 S2000x256 := dot_S2000x256_S256x256_S2000x256_1_0_0_1_n_n

theorem lhs_0 (i : S2000x256.Idx) (q : dotB.contr.Idx) : (dotB.lhsIdx i q 0).val = (i 0).val := by
  unfold DotDims.lhsIdx
  rw [dif_neg (show ¬(0 : Fin S2000x256.rank) ∈ dotB.lhsBatch by decide), dif_pos (show (0 : Fin S2000x256.rank) ∈ dotB.lhsNonContracting by decide)]
  rfl
theorem lhs_1 (i : S2000x256.Idx) (q : dotB.contr.Idx) : (dotB.lhsIdx i q 1).val = (q ⟨0, by decide⟩).val :=
  dotB.lhsIdx_val_of_single rfl i q
theorem rhs_0 (i : S2000x256.Idx) (q : dotB.contr.Idx) : (dotB.rhsIdx i q 0).val = (q ⟨0, by decide⟩).val :=
  dotB.rhsIdx_val_of_single rfl i q
theorem rhs_1 (i : S2000x256.Idx) (q : dotB.contr.Idx) : (dotB.rhsIdx i q 1).val = (i 1).val := by
  unfold DotDims.rhsIdx
  rw [dif_neg (show ¬(1 : Fin S256x256.rank) ∈ dotB.rhsBatch by decide), dif_pos (show (1 : Fin S256x256.rank) ∈ dotB.rhsNonContracting by decide)]
  rfl

/-- The matrix product into the zero accumulator, read at (p, j): the inner product of row p of the left factor with
    column j of the right one. -/
theorem matmul_at (l : FVec Ideal S2000x256 .bf16) (w : FVec Ideal S256x256 .bf16) (p : Fin 2000) (j : Fin 256) :
    FloatOps.matmul dotB none l w (constant (F := Ideal) S2000x256 .f32 0x00000000#32) (ix2 p j)
      = ∑ k : Fin 256, l (ix2 p k) * w (ix2 k j) := by
  rw [Ideal.matmul_constant_zero_apply, ← Equiv.sum_comp (contrEquiv1 dotB 256 rfl rfl).symm]
  refine Finset.sum_congr rfl fun k _ => ?_
  have hk := contrEquiv1_symm_val dotB 256 rfl rfl k
  have el : dotB.lhsIdx (ix2 p j) ((contrEquiv1 dotB 256 rfl rfl).symm k) = ix2 p k := funext fun a => Fin.ext (by
    match a with
    | ⟨0, _⟩ => exact lhs_0 _ _
    | ⟨1, _⟩ => exact (lhs_1 _ _).trans hk)
  have er : dotB.rhsIdx (ix2 p j) ((contrEquiv1 dotB 256 rfl rfl).symm k) = ix2 k j := funext fun a => Fin.ext (by
    match a with
    | ⟨0, _⟩ => exact (rhs_0 _ _).trans hk
    | ⟨1, _⟩ => exact rhs_1 _ _)
  rw [el, er]

/-! ## The body's payload at an index -/

/-- Entry (p, j) of what the body stores, from the five blocks it loads: the two inner products added, the bias row
    added, the maximum with zero taken; the changes of float format are the identity on the extended reals. -/
theorem pay_at (x0 : Vec Ideal S2000x256 .f32) (x1 : Vec Ideal S2000x256 .bf16) (x2 x3 : Vec Ideal S256x256 .bf16) (x4 : Vec Ideal S1x256 .f32)
    (p : Fin 2000) (j : Fin 256) :
    k1_pay1 (F := Ideal) x0 x1 x2 x3 x4 (ix2 p j)
      = max (((∑ k : Fin 256, x0 (ix2 p k) * x2 (ix2 k j)) + ∑ k : Fin 256, x1 (ix2 p k) * x3 (ix2 k j))
              + x4 (ix2 (0 : Fin 1) j)) 0 := by
  unfold k1_pay1
  simp only [shapeCast_self]
  refine congrArg₂ max (congrArg₂ (· + ·) (congrArg₂ (· + ·) ?_ ?_) ?_) Ideal.ofBits_zero_f32
  · exact matmul_at _ _ p j
  · exact matmul_at _ _ p j
  · exact broadcastTo_1b_ab_apply _ _ p j
/-! ## From blocks to the array -/

theorem hz : (![0, 0] : Fin 2 → Nat) = fun _ => 0 := funext fun a => by fin_cases a <;> rfl

/-- The printed index maps over the 25 grid points: the two row-blocked inputs and the output sit at block (t, 0), the
    two weight matrices and the bias row at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row p of point t's block of the aggregated rows is row 2000 t + p of the array. -/
theorem read_agg (c : Dev nD) (t : Fin cfg1.N) (p : Fin 2000) (k : Fin 256) (i : S50000x256.Idx)
    (h0 : (i 0).val = t.val * 2000 + p.val) (h1 : (i 1).val = k.val) :
    (iblk1 (F := Ideal) V c 0 t : Vec Ideal S2000x256 .f32) (ix2 p k) = (V c main_v41 : S50000x256.Idx → EReal) i := by
  obtain ⟨e0, e1, -⟩ := index_facts t
  unfold iblk1
  rw [View.read_apply]
  show V c main_v41 _ = V c main_v41 _
  refine congrArg (V c main_v41) (funext fun a => Fin.ext ?_)
  match a with
  | ⟨0, _⟩ => show win1_0.index t (0 : Fin 2) * 2000 + 1 * p.val = (i 0).val; rw [e0, h0]; omega
  | ⟨1, _⟩ => show win1_0.index t (1 : Fin 2) * 256 + 1 * k.val = (i 1).val; rw [e1, h1]; omega

/-- Row p of point t's block of the root rows is row 2000 t + p of the array. -/
theorem read_root (c : Dev nD) (t : Fin cfg1.N) (p : Fin 2000) (k : Fin 256) (i : S50000x256.Idx)
    (h0 : (i 0).val = t.val * 2000 + p.val) (h1 : (i 1).val = k.val) :
    (iblk1 (F := Ideal) V c 1 t : Vec Ideal S2000x256 .bf16) (ix2 p k) = (V c main_v28 : S50000x256.Idx → EReal) i := by
  obtain ⟨-, -, e0, e1, -⟩ := index_facts t
  unfold iblk1
  rw [View.read_apply]
  show V c main_v28 _ = V c main_v28 _
  refine congrArg (V c main_v28) (funext fun a => Fin.ext ?_)
  match a with
  | ⟨0, _⟩ => show win1_1.index t (0 : Fin 2) * 2000 + 1 * p.val = (i 0).val; rw [e0, h0]; omega
  | ⟨1, _⟩ => show win1_1.index t (1 : Fin 2) * 256 + 1 * k.val = (i 1).val; rw [e1, h1]; omega

/-- Every point's block of the first weight matrix is the whole matrix. -/
theorem read_wl (c : Dev nD) (t : Fin cfg1.N) (k : Fin 256) (j : Fin 256) :
    (iblk1 (F := Ideal) V c 2 t : Vec Ideal S256x256 .bf16) (ix2 k j) = (V c main_v43 : S256x256.Idx → EReal) (ix2 k j) := by
  obtain ⟨-, -, -, -, e0, e1, -⟩ := index_facts t
  unfold iblk1
  rw [View.read_apply]
  show V c main_v43 _ = V c main_v43 _
  refine congrArg (V c main_v43) (funext fun a => Fin.ext ?_)
  match a with
  | ⟨0, _⟩ => show win1_2.index t (0 : Fin 2) * 256 + 1 * k.val = k.val; rw [e0]; omega
  | ⟨1, _⟩ => show win1_2.index t (1 : Fin 2) * 256 + 1 * j.val = j.val; rw [e1]; omega

/-- Every point's block of the second weight matrix is the whole matrix. -/
theorem read_wr (c : Dev nD) (t : Fin cfg1.N) (k : Fin 256) (j : Fin 256) :
    (iblk1 (F := Ideal) V c 3 t : Vec Ideal S256x256 .bf16) (ix2 k j) = (V c main_v45 : S256x256.Idx → EReal) (ix2 k j) := by
  obtain ⟨-, -, -, -, -, -, e0, e1, -⟩ := index_facts t
  unfold iblk1
  rw [View.read_apply]
  show V c main_v45 _ = V c main_v45 _
  refine congrArg (V c main_v45) (funext fun a => Fin.ext ?_)
  match a with
  | ⟨0, _⟩ => show win1_3.index t (0 : Fin 2) * 256 + 1 * k.val = k.val; rw [e0]; omega
  | ⟨1, _⟩ => show win1_3.index t (1 : Fin 2) * 256 + 1 * j.val = j.val; rw [e1]; omega

/-- Every point's block of the bias row is the whole row. -/
theorem read_bias (c : Dev nD) (t : Fin cfg1.N) (j : Fin 256) :
    (iblk1 (F := Ideal) V c 4 t : Vec Ideal S1x256 .f32) (ix2 (0 : Fin 1) j) = (V c main_v46 : S1x256.Idx → EReal) (ix2 (0 : Fin 1) j) := by
  obtain ⟨-, -, -, -, -, -, -, -, e0, e1, -⟩ := index_facts t
  unfold iblk1
  rw [View.read_apply]
  show V c main_v46 _ = V c main_v46 _
  refine congrArg (V c main_v46) (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 256 + 1 * j.val = j.val; rw [e1]; omega

/-- Entry (p, j) of the body's result on five blocks is entry (r, j) of the layer on five arrays, when row p of the two
    row blocks is row r of their arrays and the weight and bias blocks are their arrays. -/
theorem entry_eq (A X : Arr2 50000 256) (Wl Wr : Arr2 256 256) (B : Arr2 1 256)
    (a0 : Vec Ideal S2000x256 .f32) (a1 : Vec Ideal S2000x256 .bf16) (w0 w1 : Vec Ideal S256x256 .bf16) (b : Vec Ideal S1x256 .f32)
    (p : Fin 2000) (j : Fin 256) (r : Fin 50000) (j' : Fin 256) (hj : j'.val = j.val)
    (hA : ∀ k : Fin 256, a0 (ix2 p k) = A (ix2 r k)) (hX : ∀ k : Fin 256, a1 (ix2 p k) = X (ix2 r k))
    (hWl : ∀ k : Fin 256, w0 (ix2 k j) = Wl (ix2 k j)) (hWr : ∀ k : Fin 256, w1 (ix2 k j) = Wr (ix2 k j))
    (hB : b (ix2 (0 : Fin 1) j) = B (ix2 (0 : Fin 1) j)) :
    k1_pay1 (F := Ideal) a0 a1 w0 w1 b (ix2 p j) = layerTAt 50000 256 A X Wl Wr B r j' := by
  obtain rfl : j' = j := Fin.ext hj
  rw [pay_at]
  unfold layerTAt
  simp only [hA, hX, hWl, hWr, hB]

/-- What point t writes back is block t of the layer of the five arrays as the region finds them. -/
theorem flushed_eq (c : Dev nD) (t : Fin cfg1.N) :
    (dat1 (F := Ideal) V c).flushed 5 t
      = ((cfg1.win 5).blk t).view.read (Elt Ideal)
          (layerT 50000 256 (V c main_v41) (V c main_v28) (V c main_v43) (V c main_v45) (V c main_v46)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  funext y
  obtain ⟨p, j, rfl⟩ : ∃ (p : Fin 2000) (j : Fin 256), y = ix2 p j := ⟨y 0, y 1, eq_ix2 y⟩
  obtain ⟨-, -, -, -, -, -, -, -, -, -, e0, e1⟩ := index_facts t
  have hr : ((((cfg1.win 5).blk t).view.emb (ix2 p j)) (0 : Fin 2)).val = t.val * 2000 + p.val := by
    show win1_5.index t (0 : Fin 2) * 2000 + 1 * p.val = _
    rw [e0]; omega
  have hc : ((((cfg1.win 5).blk t).view.emb (ix2 p j)) (1 : Fin 2)).val = j.val := by
    show win1_5.index t (1 : Fin 2) * 256 + 1 * j.val = _
    rw [e1]; omega
  show k1_pay1 (F := Ideal) (iblk1 V c 0 t) (iblk1 V c 1 t) (iblk1 V c 2 t) (iblk1 V c 3 t) (iblk1 V c 4 t) (ix2 p j)
      = layerTAt 50000 256 (V c main_v41) (V c main_v28) (V c main_v43) (V c main_v45) (V c main_v46)
          ((((cfg1.win 5).blk t).view.emb (ix2 p j)) (0 : Fin 2)) ((((cfg1.win 5).blk t).view.emb (ix2 p j)) (1 : Fin 2))
  exact entry_eq (V c main_v41) (V c main_v28) (V c main_v43) (V c main_v45) (V c main_v46)
    (iblk1 V c 0 t) (iblk1 V c 1 t) (iblk1 V c 2 t) (iblk1 V c 3 t) (iblk1 V c 4 t) p j
    ((((cfg1.win 5).blk t).view.emb (ix2 p j)) (0 : Fin 2)) ((((cfg1.win 5).blk t).view.emb (ix2 p j)) (1 : Fin 2)) hc
    (fun k => read_agg V c t p k (ix2 ((((cfg1.win 5).blk t).view.emb (ix2 p j)) (0 : Fin 2)) k) hr rfl)
    (fun k => read_root V c t p k (ix2 ((((cfg1.win 5).blk t).view.emb (ix2 p j)) (0 : Fin 2)) k) hr rfl)
    (fun k => read_wl V c t k j) (fun k => read_wr V c t k j) (read_bias V c t j)

/-- An index of the array is in point t's block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v47).slice (win1_5.rect t)).set ↔ _
  rw [View.set_slice_whole, Rect.mem_set_unit]
  exact Iff.rfl

/-- Every index of the array lies in some point's block: row r in that of point r / 2000. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, -, -, e0, e1⟩ := index_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 256 ≤ (i 1).val ∧ (i 1).val < win1_5.index t (1 : Fin 2) * 256 + 256; rw [e1]; omega

/-- THE ARRAY the second layer's region leaves: the layer of the five arrays as the region finds them. -/
theorem final (c : Dev nD) :
    (dat1 (F := Ideal) V c).arrAt 5 cfg1.N
      = layerT 50000 256 (V c main_v41) (V c main_v28) (V c main_v43) (V c main_v45) (V c main_v46) :=
  (dat1 (F := Ideal) V c).arrAt_eq_of_cover 5
    (layerT 50000 256 (V c main_v41) (V c main_v28) (V c main_v43) (V c main_v45) (V c main_v46))
    (fun t _ => flushed_eq V c t) cover

end Cert.KernelIdeal.Conv2

end
-- ==== Proof.Glue1.lean ====
/-
  The two graph-convolution layers, as whole arrays.  The first region leaves, in its output array, the layer function of
  the arrays it found (block by block: each of its 25 grid points writes 2000 rows); what it found are the neighbour means
  the host computed, the node features, and the transposed weights and bias row, so its output is the layer in the
  bias-in-the-middle order.  Between the regions the host forms the second layer's neighbour means from that output with
  the same gather / scatter-add / divide composition the reference applies to ITS first layer's output; so if the two
  first-layer outputs are one array, the second layer's inputs agree, and the second region's output is the second layer.
-/
import proofs.«128267_j13993003450942_2_alg».proof.Proof.Gen.KernelIdeal.Frame
import proofs.«128267_j13993003450942_2_alg».proof.Proof.Gen.ReferenceIdeal.Read
import proofs.«128267_j13993003450942_2_alg».proof.Proof.Spec
import proofs.«128267_j13993003450942_2_alg».proof.Proof.Glue0
import proofs.«128267_j13993003450942_2_alg».proof.Proof.Conv1
import proofs.«128267_j13993003450942_2_alg».proof.Proof.Conv2
import Idealize.ShloMosaic.Lib.ValueLayout
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

open Cert.GraphSage

/-! ## The first layer -/

/-- The first region's output array is the layer function of the arrays the region found. -/
theorem h1_layerT :
    (W2 m ρ c (Proc.devRef .tc main_v28) : S50000x256.Idx → EReal)
      = layerT 50000 128 (W1 m ρ c (Proc.devRef .tc main_v22)) (W1 m ρ c (Proc.devRef .tc main_arg0))
          (W1 m ρ c (Proc.devRef .tc main_v24)) (W1 m ρ c (Proc.devRef .tc main_v26)) (W1 m ρ c (Proc.devRef .tc main_v27)) :=
  (W2_arr m ρ c 5).trans (Cert.KernelIdeal.Conv1.final (V1 m ρ) c)

/-- The first region's output array is the first layer of the reference's neighbour means and the node features. -/
theorem h1_layer :
    (W2 m ρ c (Proc.devRef .tc main_v28) : S50000x256.Idx → EReal)
      = layer 50000 128 (Cert.ReferenceIdeal.Read.val_main_v22 (F := Ideal) (m ((c : Thread nD τ).loc main_arg0)) (m ((c : Thread nD τ).loc main_arg1))) (m ((c : Thread nD τ).loc main_arg0)) (m ((c : Thread nD τ).loc main_arg6)) (m ((c : Thread nD τ).loc main_arg8)) (m ((c : Thread nD τ).loc main_arg7)) := by
  refine (h1_layerT m ρ c).trans ?_
  rw [agg1, x_kept1]
  exact layerT_eq 50000 128 _ _ _ _ _ (m ((c : Thread nD τ).loc main_arg6)) (m ((c : Thread nD τ).loc main_arg8)) (m ((c : Thread nD τ).loc main_arg7)) (wl1 m ρ c) (wr1 m ρ c) (bl1 m ρ c)

/-! ## Between the layers -/

/-- An argument no host operation and no region has written is as launched when the second stretch starts. -/
theorem arg9_at_W2 : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp)
theorem arg10_at_W2 : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp)
theorem arg11_at_W2 : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results_simp)

/-- The neighbour means of the first layer's output, as the second region finds them, are the reference's — given
    that the first layer's output is the reference's. -/
theorem agg2
    (h : (W2 m ρ c (Proc.devRef .tc main_v28) : S50000x256.Idx → EReal)
        = Cert.ReferenceIdeal.Read.val_main_v31 (F := Ideal) (m ((c : Thread nD τ).loc main_arg0)) (m ((c : Thread nD τ).loc main_arg1)) (m ((c : Thread nD τ).loc main_arg6)) (m ((c : Thread nD τ).loc main_arg7)) (m ((c : Thread nD τ).loc main_arg8))) :
    (W3 m ρ c (Proc.devRef .tc main_v41) : S50000x256.Idx → EReal)
      = Cert.ReferenceIdeal.Read.val_main_v50 (F := Ideal) (m ((c : Thread nD τ).loc main_arg0)) (m ((c : Thread nD τ).loc main_arg1)) (m ((c : Thread nD τ).loc main_arg6)) (m ((c : Thread nD τ).loc main_arg7)) (m ((c : Thread nD τ).loc main_arg8)) := by
  show StableHlo.after hostOps1 (W2 m ρ c) (Proc.devRef .tc main_v41) = _
  after_results_simp
  rw [W2_of_ne m ρ c main_v1 (by decide), W2_of_ne m ρ c main_v3 (by decide), W2_of_ne m ρ c main_v10 (by decide),
    src1, dst1, cnt1, h]
  rfl

/-- The first layer's output is untouched by the second stretch. -/
theorem h1_kept3 : W3 m ρ c (Proc.devRef .tc main_v28) = W2 m ρ c (Proc.devRef .tc main_v28) := by
  show StableHlo.after hostOps1 (W2 m ρ c) (Proc.devRef .tc main_v28) = _
  after_results_simp

/-- The second layer's neighbour weight, transposed. -/
theorem wl2 (k : Fin 256) (j : Fin 256) :
    (W3 m ρ c (Proc.devRef .tc main_v43) : S256x256.Idx → EReal) (ix2 k j) = (m ((c : Thread nD τ).loc main_arg9)) (ix2 j k) := by
  have h : (W3 m ρ c (Proc.devRef .tc main_v43) : S256x256.Idx → EReal)
      = transpose S256x256 [1, 0] (m ((c : Thread nD τ).loc main_arg9)) transposes_S256x256_S256x256_1_0 := by
    show StableHlo.after hostOps1 (W2 m ρ c) (Proc.devRef .tc main_v43) = _
    after_results_simp
    rw [arg9_at_W2]
    rfl
  exact (congrFun h (ix2 k j)).trans (transpose_ix2_apply (m ((c : Thread nD τ).loc main_arg9)) transposes_S256x256_S256x256_1_0 k j)

/-- The second layer's root weight, transposed. -/
theorem wr2 (k : Fin 256) (j : Fin 256) :
    (W3 m ρ c (Proc.devRef .tc main_v45) : S256x256.Idx → EReal) (ix2 k j) = (m ((c : Thread nD τ).loc main_arg11)) (ix2 j k) := by
  have h : (W3 m ρ c (Proc.devRef .tc main_v45) : S256x256.Idx → EReal)
      = transpose S256x256 [1, 0] (m ((c : Thread nD τ).loc main_arg11)) transposes_S256x256_S256x256_1_0 := by
    show StableHlo.after hostOps1 (W2 m ρ c) (Proc.devRef .tc main_v45) = _
    after_results_simp
    rw [arg11_at_W2]
    rfl
  exact (congrFun h (ix2 k j)).trans (transpose_ix2_apply (m ((c : Thread nD τ).loc main_arg11)) transposes_S256x256_S256x256_1_0 k j)

/-- The second layer's bias as a row. -/
theorem bl2 (j : Fin 256) :
    (W3 m ρ c (Proc.devRef .tc main_v46) : S1x256.Idx → EReal) (ix2 (0 : Fin 1) j) = (m ((c : Thread nD τ).loc main_arg10)) (ix1 j) := by
  have h : (W3 m ρ c (Proc.devRef .tc main_v46) : S1x256.Idx → EReal)
      = shapeCast S1x256 (m ((c : Thread nD τ).loc main_arg10)) shapeCasts_S256_S1x256 := by
    show StableHlo.after hostOps1 (W2 m ρ c) (Proc.devRef .tc main_v46) = _
    after_results_simp
    rw [arg10_at_W2]
    rfl
  exact (congrFun h (ix2 (0 : Fin 1) j)).trans (shapeCast_a_1a_apply (m ((c : Thread nD τ).loc main_arg10)) shapeCasts_S256_S1x256 (0 : Fin 1) j)

/-! ## The second layer -/

/-- The second region's output array is the layer function of the arrays the region found. -/
theorem h2_layerT :
    (W4 m ρ c (Proc.devRef .tc main_v47) : S50000x256.Idx → EReal)
      = layerT 50000 256 (W3 m ρ c (Proc.devRef .tc main_v41)) (W3 m ρ c (Proc.devRef .tc main_v28))
          (W3 m ρ c (Proc.devRef .tc main_v43)) (W3 m ρ c (Proc.devRef .tc main_v45)) (W3 m ρ c (Proc.devRef .tc main_v46)) :=
  (W4_arr m ρ c 5).trans (Cert.KernelIdeal.Conv2.final (V3 m ρ) c)

/-- The second region's output array is the second layer of the reference's second neighbour means and first-layer output —
    given that the first layer's output is the reference's. -/
theorem h2_layer
    (h : (W2 m ρ c (Proc.devRef .tc main_v28) : S50000x256.Idx → EReal)
        = Cert.ReferenceIdeal.Read.val_main_v31 (F := Ideal) (m ((c : Thread nD τ).loc main_arg0)) (m ((c : Thread nD τ).loc main_arg1)) (m ((c : Thread nD τ).loc main_arg6)) (m ((c : Thread nD τ).loc main_arg7)) (m ((c : Thread nD τ).loc main_arg8))) :
    (W4 m ρ c (Proc.devRef .tc main_v47) : S50000x256.Idx → EReal)
      = layer 50000 256 (Cert.ReferenceIdeal.Read.val_main_v50 (F := Ideal) (m ((c : Thread nD τ).loc main_arg0)) (m ((c : Thread nD τ).loc main_arg1)) (m ((c : Thread nD τ).loc main_arg6)) (m ((c : Thread nD τ).loc main_arg7)) (m ((c : Thread nD τ).loc main_arg8)))
          (Cert.ReferenceIdeal.Read.val_main_v31 (F := Ideal) (m ((c : Thread nD τ).loc main_arg0)) (m ((c : Thread nD τ).loc main_arg1)) (m ((c : Thread nD τ).loc main_arg6)) (m ((c : Thread nD τ).loc main_arg7)) (m ((c : Thread nD τ).loc main_arg8))) (m ((c : Thread nD τ).loc main_arg9)) (m ((c : Thread nD τ).loc main_arg11)) (m ((c : Thread nD τ).loc main_arg10)) := by
  refine (h2_layerT m ρ c).trans ?_
  rw [agg2 m ρ c h, h1_kept3, h]
  exact layerT_eq 50000 256 _ _ _ _ _ (m ((c : Thread nD τ).loc main_arg9)) (m ((c : Thread nD τ).loc main_arg11)) (m ((c : Thread nD τ).loc main_arg10)) (wl2 m ρ c) (wr2 m ρ c) (bl2 m ρ c)

end Cert.KernelIdeal.Glue

end
-- ==== Proof.Glue2.lean ====
/-
  What the third region finds in its arrays, and the last host operation.  Before the third region the host gathers the
  second layer's rows at the two endpoints of every scored pair (the endpoint lists wrapped into range as the reference
  wraps them), cuts the scorer's first weight into its three column ranges and transposes each, transposes the second
  weight into a column, and re-lays the offsets as a column and the two biases as rows.  The two gathered arrays are the
  reference's own gathers when the second layer's array is the reference's; a transposed piece read at (k, j) is the
  weight at (j, offset + k); a re-laid vector read at its one free coordinate is the vector there.  After the third
  region the host re-lays the score column as a flat list: entry p is the column's entry (p, 0).
-/
import proofs.«128267_j13993003450942_2_alg».proof.Proof.Gen.KernelIdeal.Frame
import proofs.«128267_j13993003450942_2_alg».proof.Proof.Gen.ReferenceIdeal.Read
import Idealize.ShloMosaic.Lib.ValueLayout
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## Two re-layings read at an index -/

/-- An `[a]` array cast to `[a, 1]` reads, at `(i, u)`, the operand at `i`, whatever the unit coordinate `u`. -/
theorem colOfVec_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem vecOfCol_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + (0 : Fin 1).val = i.val
    rw [Nat.mul_one]; rfl)

/-! ## The arguments the third stretch of host operations reads are still as launched -/

/-- The scored pairs' first endpoints are as launched when the second region ends. -/
theorem arg_at_W4_2 : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results_simp
  rw [W2_of_ne m ρ c main_arg2 (by decide)]
  show StableHlo.after hostOps0 (W0 m ρ c) (Proc.devRef .tc main_arg2) = _
  after_results_simp

/-- The scored pairs' second endpoints are as launched when the second region ends. -/
theorem arg_at_W4_3 : W4 m ρ c (Proc.devRef .tc main_arg3) = m ((c : Thread nD τ).loc main_arg3) := by
  rw [W4_of_ne m ρ c main_arg3 (by decide)]
  show StableHlo.after hostOps1 (W2 m ρ c) (Proc.devRef .tc main_arg3) = _
  after_results_simp
  rw [W2_of_ne m ρ c main_arg3 (by decide)]
  show StableHlo.after hostOps0 (W0 m ρ c) (Proc.devRef .tc main_arg3) = _
  after_results_simp

/-- The pairs' attribute rows are as launched when the second region ends. -/
theorem arg_at_W4_4 : W4 m ρ c (Proc.devRef .tc main_arg4) = m ((c : Thread nD τ).loc main_arg4) := by
  rw [W4_of_ne m ρ c main_arg4 (by decide)]
  show StableHlo.after hostOps1 (W2 m ρ c) (Proc.devRef .tc main_arg4) = _
  after_results_simp
  rw [W2_of_ne m ρ c main_arg4 (by decide)]
  show StableHlo.after hostOps0 (W0 m ρ c) (Proc.devRef .tc main_arg4) = _
  after_results_simp

/-- The pairs' offsets are as launched when the second region ends. -/
theorem arg_at_W4_5 : W4 m ρ c (Proc.devRef .tc main_arg5) = m ((c : Thread nD τ).loc main_arg5) := by
  rw [W4_of_ne m ρ c main_arg5 (by decide)]
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp

/-- The scorer's first weight is as launched when the second region ends. -/
theorem arg_at_W4_12 : W4 m ρ c (Proc.devRef .tc main_arg12) = m ((c : Thread nD τ).loc main_arg12) := by
  rw [W4_of_ne m ρ c main_arg12 (by decide)]
  show StableHlo.after hostOps1 (W2 m ρ c) (Proc.devRef .tc main_arg12) = _
  after_results_simp
  rw [W2_of_ne m ρ c main_arg12 (by decide)]
  show StableHlo.after hostOps0 (W0 m ρ c) (Proc.devRef .tc main_arg12) = _
  after_results_simp

/-- The scorer's first bias is as launched when the second region ends. -/
theorem arg_at_W4_13 : W4 m ρ c (Proc.devRef .tc main_arg13) = m ((c : Thread nD τ).loc main_arg13) := by
  rw [W4_of_ne m ρ c main_arg13 (by decide)]
  show StableHlo.after hostOps1 (W2 m ρ c) (Proc.devRef .tc main_arg13) = _
  after_results_simp
  rw [W2_of_ne m ρ c main_arg13 (by decide)]
  show StableHlo.after hostOps0 (W0 m ρ c) (Proc.devRef .tc main_arg13) = _
  after_results_simp

/-- The scorer's second weight is as launched when the second region ends. -/
theorem arg_at_W4_14 : W4 m ρ c (Proc.devRef .tc main_arg14) = m ((c : Thread nD τ).loc main_arg14) := by
  rw [W4_of_ne m ρ c main_arg14 (by decide)]
  show StableHlo.after hostOps1 (W2 m ρ c) (Proc.devRef .tc main_arg14) = _
  after_results_simp
  rw [W2_of_ne m ρ c main_arg14 (by decide)]
  show StableHlo.after hostOps0 (W0 m ρ c) (Proc.devRef .tc main_arg14) = _
  after_results_simp

/-- The scorer's second bias is as launched when the second region ends. -/
theorem arg_at_W4_15 : W4 m ρ c (Proc.devRef .tc main_arg15) = m ((c : Thread nD τ).loc main_arg15) := by
  rw [W4_of_ne m ρ c main_arg15 (by decide)]
  show StableHlo.after hostOps1 (W2 m ρ c) (Proc.devRef .tc main_arg15) = _
  after_results_simp
  rw [W2_of_ne m ρ c main_arg15 (by decide)]
  show StableHlo.after hostOps0 (W0 m ρ c) (Proc.devRef .tc main_arg15) = _
  after_results_simp

/-! ## What the third region finds -/

/-- The second layer's rows gathered at the pairs' first endpoints are the reference's gather, when the second layer's
    array is the reference's. -/
theorem hu2
    (h : (W4 m ρ c (Proc.devRef .tc main_v47) : S50000x256.Idx → EReal)
        = Cert.ReferenceIdeal.Read.val_main_v59 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    (W5 m ρ c (Proc.devRef .tc main_v54) : S500000x256.Idx → EReal)
      = Cert.ReferenceIdeal.Read.val_main_v66 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v54) = _
  after_results_simp
  rw [h, arg_at_W4_2 m ρ c]
  rfl

/-- The second layer's rows gathered at the pairs' second endpoints are the reference's gather, when the second layer's
    array is the reference's. -/
theorem hv2
    (h : (W4 m ρ c (Proc.devRef .tc main_v47) : S50000x256.Idx → EReal)
        = Cert.ReferenceIdeal.Read.val_main_v59 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    (W5 m ρ c (Proc.devRef .tc main_v61) : S500000x256.Idx → EReal)
      = Cert.ReferenceIdeal.Read.val_main_v73 (F := Ideal) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v61) = _
  after_results_simp
  rw [h, arg_at_W4_3 m ρ c]
  rfl

/-- The pairs' attribute rows are as launched when the third region starts. -/
theorem ea2 : W5 m ρ c (Proc.devRef .tc main_arg4) = (m ((c : Thread nD τ).loc main_arg4)) := by
  show StableHlo.after hostOps2 (W4 m ρ c) (Proc.devRef .tc main_arg4) = _
  after_results_simp
  exact arg_at_W4_4 m ρ c

/-- The pairs' offsets as a column: entry (p, 0) is the offset of pair p. -/
theorem le2 (p : Fin 500000) (c' : Fin 1) :
    (W5 m ρ c (Proc.devRef .tc main_v65) : S500000x1.Idx → EReal) (ix2 p c') = (m ((c : Thread nD τ).loc main_arg5)) (ix1 p) := by
  have h : (W5 m ρ c (Proc.devRef .tc main_v65) : S500000x1.Idx → EReal)
      = shapeCast S500000x1 (m ((c : Thread nD τ).loc main_arg5)) shapeCasts_S500000_S500000x1 := by
    show StableHlo.after hostOps2 (W4 m ρ c) (Proc.devRef .tc main_v65) = _
    after_results_simp
    exact congrArg (fun x => shapeCast S500000x1 x shapeCasts_S500000_S500000x1) (arg_at_W4_5 m ρ c)
  exact (congrFun h (ix2 p c')).trans (colOfVec_apply (m ((c : Thread nD τ).loc main_arg5)) shapeCasts_S500000_S500000x1 p c')

/-- The first column range of the scorer's first weight, transposed: entry (k, j) is the weight's entry (j, k). -/
theorem w1u2 (k : Fin 256) (j : Fin 256) :
    (W5 m ρ c (Proc.devRef .tc main_v67) : S256x256.Idx → EReal) (ix2 k j) = (m ((c : Thread nD τ).loc main_arg12)) (ix2 j (⟨k.val, by omega⟩ : Fin 528)) := by
  have h : (W5 m ρ c (Proc.devRef .tc main_v67) : S256x256.Idx → EReal)
      = transpose S256x256 [1, 0] (extractStridedSlice S256x256 ![0, 0] (m ((c : Thread nD τ).loc main_arg12)) slices_S256x528_S256x256_0_0) transposes_S256x256_S256x256_1_0 := by
    show StableHlo.after hostOps2 (W4 m ρ c) (Proc.devRef .tc main_v67) = _
    after_results_simp
    exact congrArg (fun x => transpose S256x256 [1, 0] (extractStridedSlice S256x256 ![0, 0] x slices_S256x528_S256x256_0_0) transposes_S256x256_S256x256_1_0) (arg_at_W4_12 m ρ c)
  refine (congrFun h (ix2 k j)).trans ?_
  refine (transpose_ix2_apply _ transposes_S256x256_S256x256_1_0 k j).trans ?_
  exact slice2_axis1_apply 0 (m ((c : Thread nD τ).loc main_arg12)) slices_S256x528_S256x256_0_0 j k (⟨k.val, by omega⟩ : Fin 528) (Nat.zero_add _).symm

/-- The second column range of the scorer's first weight, transposed: entry (k, j) is the weight's entry (j, 256 + k). -/
theorem w1v2 (k : Fin 256) (j : Fin 256) :
    (W5 m ρ c (Proc.devRef .tc main_v69) : S256x256.Idx → EReal) (ix2 k j) = (m ((c : Thread nD τ).loc main_arg12)) (ix2 j (⟨256 + k.val, by omega⟩ : Fin 528)) := by
  have h : (W5 m ρ c (Proc.devRef .tc main_v69) : S256x256.Idx → EReal)
      = transpose S256x256 [1, 0] (extractStridedSlice S256x256 ![0, 256] (m ((c : Thread nD τ).loc main_arg12)) slices_S256x528_S256x256_0_256) transposes_S256x256_S256x256_1_0 := by
    show StableHlo.after hostOps2 (W4 m ρ c) (Proc.devRef .tc main_v69) = _
    after_results_simp
    exact congrArg (fun x => transpose S256x256 [1, 0] (extractStridedSlice S256x256 ![0, 256] x slices_S256x528_S256x256_0_256) transposes_S256x256_S256x256_1_0) (arg_at_W4_12 m ρ c)
  refine (congrFun h (ix2 k j)).trans ?_
  refine (transpose_ix2_apply _ transposes_S256x256_S256x256_1_0 k j).trans ?_
  exact slice2_axis1_apply 256 (m ((c : Thread nD τ).loc main_arg12)) slices_S256x528_S256x256_0_256 j k (⟨256 + k.val, by omega⟩ : Fin 528) rfl

/-- The last column range of the scorer's first weight, transposed: entry (k, j) is the weight's entry (j, 512 + k). -/
theorem w1e2 (k : Fin 16) (j : Fin 256) :
    (W5 m ρ c (Proc.devRef .tc main_v71) : S16x256.Idx → EReal) (ix2 k j) = (m ((c : Thread nD τ).loc main_arg12)) (ix2 j (⟨512 + k.val, by omega⟩ : Fin 528)) := by
  have h : (W5 m ρ c (Proc.devRef .tc main_v71) : S16x256.Idx → EReal)
      = transpose S16x256 [1, 0] (extractStridedSlice S256x16 ![0, 512] (m ((c : Thread nD τ).loc main_arg12)) slices_S256x528_S256x16_0_512) transposes_S256x16_S16x256_1_0 := by
    show StableHlo.after hostOps2 (W4 m ρ c) (Proc.devRef .tc main_v71) = _
    after_results_simp
    exact congrArg (fun x => transpose S16x256 [1, 0] (extractStridedSlice S256x16 ![0, 512] x slices_S256x528_S256x16_0_512) transposes_S256x16_S16x256_1_0) (arg_at_W4_12 m ρ c)
  refine (congrFun h (ix2 k j)).trans ?_
  refine (transpose_ix2_apply _ transposes_S256x16_S16x256_1_0 k j).trans ?_
  exact slice2_axis1_apply 512 (m ((c : Thread nD τ).loc main_arg12)) slices_S256x528_S256x16_0_512 j k (⟨512 + k.val, by omega⟩ : Fin 528) rfl

/-- The scorer's first bias as a row: entry (0, j) is the bias at j. -/
theorem b12 (j : Fin 256) :
    (W5 m ρ c (Proc.devRef .tc main_v74) : S1x256.Idx → EReal) (ix2 (0 : Fin 1) j) = (m ((c : Thread nD τ).loc main_arg13)) (ix1 j) := by
  have h : (W5 m ρ c (Proc.devRef .tc main_v74) : S1x256.Idx → EReal)
      = shapeCast S1x256 (m ((c : Thread nD τ).loc main_arg13)) shapeCasts_S256_S1x256 := by
    show StableHlo.after hostOps2 (W4 m ρ c) (Proc.devRef .tc main_v74) = _
    after_results_simp
    exact congrArg (fun x => shapeCast S1x256 x shapeCasts_S256_S1x256) (arg_at_W4_13 m ρ c)
  exact (congrFun h (ix2 (0 : Fin 1) j)).trans (shapeCast_a_1a_apply (m ((c : Thread nD τ).loc main_arg13)) shapeCasts_S256_S1x256 (0 : Fin 1) j)

/-- The scorer's second weight as a column: entry (j, 0) is the weight's entry (0, j). -/
theorem w22 (j : Fin 256) (c' : Fin 1) :
    (W5 m ρ c (Proc.devRef .tc main_v73) : S256x1.Idx → EReal) (ix2 j c') = (m ((c : Thread nD τ).loc main_arg14)) (ix2 (0 : Fin 1) j) := by
  have h : (W5 m ρ c (Proc.devRef .tc main_v73) : S256x1.Idx → EReal)
      = transpose S256x1 [1, 0] (m ((c : Thread nD τ).loc main_arg14)) transposes_S1x256_S256x1_1_0 := by
    show StableHlo.after hostOps2 (W4 m ρ c) (Proc.devRef .tc main_v73) = _
    after_results_simp
    exact congrArg (fun x => transpose S256x1 [1, 0] x transposes_S1x256_S256x1_1_0) (arg_at_W4_14 m ρ c)
  obtain rfl : c' = 0 := Subsingleton.elim c' 0
  exact (congrFun h (ix2 j (0 : Fin 1))).trans (transpose_ix2_apply (m ((c : Thread nD τ).loc main_arg14)) transposes_S1x256_S256x1_1_0 j (0 : Fin 1))

/-- The scorer's second bias as a one-entry row: its entry is the bias. -/
theorem b22 (c' : Fin 1) :
    (W5 m ρ c (Proc.devRef .tc main_v75) : S1x1.Idx → EReal) (ix2 (0 : Fin 1) c') = (m ((c : Thread nD τ).loc main_arg15)) (ix1 (0 : Fin 1)) := by
  have h : (W5 m ρ c (Proc.devRef .tc main_v75) : S1x1.Idx → EReal)
      = shapeCast S1x1 (m ((c : Thread nD τ).loc main_arg15)) shapeCasts_S1_S1x1 := by
    show StableHlo.after hostOps2 (W4 m ρ c) (Proc.devRef .tc main_v75) = _
    after_results_simp
    exact congrArg (fun x => shapeCast S1x1 x shapeCasts_S1_S1x1) (arg_at_W4_15 m ρ c)
  obtain rfl : c' = 0 := Subsingleton.elim c' 0
  exact (congrFun h (ix2 (0 : Fin 1) (0 : Fin 1))).trans (shapeCast_a_1a_apply (m ((c : Thread nD τ).loc main_arg15)) shapeCasts_S1_S1x1 (0 : Fin 1) (0 : Fin 1))

/-! ## The last host operation -/

/-- The result: the score column the third region leaves, re-laid as a flat list; entry p is the column's entry (p, 0). -/
theorem out3 (p : Fin 500000) :
    (W7 m ρ c (Proc.devRef .tc main_v77) : S500000.Idx → EReal) (ix1 p)
      = (W6 m ρ c (Proc.devRef .tc main_v76) : S500000x1.Idx → EReal) (ix2 p (0 : Fin 1)) := by
  have h : (W7 m ρ c (Proc.devRef .tc main_v77) : S500000.Idx → EReal)
      = shapeCast S500000 (W6 m ρ c (Proc.devRef .tc main_v76) : S500000x1.Idx → EReal) shapeCasts_S500000x1_S500000 := by
    show StableHlo.after hostOps3 (W6 m ρ c) (Proc.devRef .tc main_v77) = _
    after_results_simp
    rfl
  exact (congrFun h (ix1 p)).trans (vecOfCol_apply (W6 m ρ c (Proc.devRef .tc main_v76) : S500000x1.Idx → EReal) shapeCasts_S500000x1_S500000 p)

end Cert.KernelIdeal.Glue

end
-- ==== Proof.HeadPay.lean ====
/-
  The edge scorer's body, read at one entry of its output block, on the extended reals.

  The body multiplies the 4000 rows of the block of each of the three row arrays (two of length 256, one of length 16)
  with the matching piece of the first weight (held transposed: [256, 256], [256, 256], [16, 256]), adds the three
  products in turn, adds the bias row (a [1, 256] array broadcast over the rows), takes the maximum with zero,
  multiplies with the second weight's column ([256, 1]), adds the second bias (a [1, 1] array broadcast over the rows)
  and last the block of offsets ([4000, 1]). Each product accumulates into zeros, so at an entry it is the plain sum
  over the shared coordinate of the products of the operands' entries; a change of float format is the identity on
  the extended reals, and the zero word denotes 0. So entry (p, c) of the result is

    ((Σ_j max((((Σ_k x0(p,k)·x4(k,j)) + Σ_k x1(p,k)·x5(k,j)) + Σ_k x2(p,k)·x6(k,j)) + x7(0,j), 0) · x8(j,c)) + x9(0,c)) + x3(p,c)

  in exactly the body's order of additions: `pay_apply`. The three lemmas `mulU_apply`, `mulE_apply`, `mulW_apply` read
  the three shapes of product ([4000,256]×[256,256], [4000,16]×[16,256], [4000,256]×[256,1]) at an entry, by re-indexing
  the one-axis contraction through its coordinate.
-/
import proofs.«128267_j13993003450942_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Head

open Idealize.ShloMosaic Idealize.ShloMosaic.ValueIdx
open Cert.KernelIdeal Cert.KernelIdeal.Gen

/-- Operand indices of the [4000,256] × [256,256] product at output entry `i` and contraction index `q`. -/
theorem mulU_lhs0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem mulU_lhs1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem mulU_rhs0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem mulU_rhs1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The [4000,256] × [256,256] product into a zero accumulator, at entry (p, j): the sum over the 256 shared coordinates. -/
theorem mulU_apply {φ₁ φ₂ : FTy} (l : FVec Ideal S4000x256 φ₁) (r : FVec Ideal S256x256 φ₂) (p : Fin 4000) (j : Fin 256) :
    matmul dot_S4000x256_S256x256_S4000x256_1_0_0_1_n_n none l r (constant S4000x256 .f32 0x00000000#32) (ix2 p j)
      = ∑ k : Fin 256, l (ix2 p k) * r (ix2 k j) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p j) ((contrEquiv1 dot_S4000x256_S256x256_S4000x256_1_0_0_1_n_n 256 rfl rfl).symm k) = ix2 p k := funext fun a => Fin.ext (by
    match a with
    | ⟨0, _⟩ => exact mulU_lhs0 _ _
    | ⟨1, _⟩ => exact (mulU_lhs1 _ _).trans hk)
  have er : dot_S4000x256_S256x256_S4000x256_1_0_0_1_n_n.rhsIdx (ix2 p j) ((contrEquiv1 dot_S4000x256_S256x256_S4000x256_1_0_0_1_n_n 256 rfl rfl).symm k) = ix2 k j := funext fun a => Fin.ext (by
    match a with
    | ⟨0, _⟩ => exact (mulU_rhs0 _ _).trans hk
    | ⟨1, _⟩ => exact mulU_rhs1 _ _)
  rw [el, er]

/-- Operand indices of the [4000,16] × [16,256] product at output entry `i` and contraction index `q`. -/
theorem mulE_lhs0 (i : S4000x256.Idx) (q : dot_S4000x16_S16x256_S4000x256_1_0_0_1_n_n.contr.Idx) :
    (dot_S4000x16_S16x256_S4000x256_1_0_0_1_n_n.lhsIdx i q 0).val = (i 0).val := by
  unfold DotDims.lhsIdx
  rw [dif_neg (show ¬(0 : Fin S4000x16.rank) ∈ dot_S4000x16_S16x256_S4000x256_1_0_0_1_n_n.lhsBatch by decide), dif_pos (show (0 : Fin S4000x16.rank) ∈ dot_S4000x16_S16x256_S4000x256_1_0_0_1_n_n.lhsNonContracting by decide)]
  rfl
theorem mulE_lhs1 (i : S4000x256.Idx) (q : dot_S4000x16_S16x256_S4000x256_1_0_0_1_n_n.contr.Idx) :
    (dot_S4000x16_S16x256_S4000x256_1_0_0_1_n_n.lhsIdx i q 1).val = (q ⟨0, by decide⟩).val :=
  dot_S4000x16_S16x256_S4000x256_1_0_0_1_n_n.lhsIdx_val_of_single rfl i q
theorem mulE_rhs0 (i : S4000x256.Idx) (q : dot_S4000x16_S16x256_S4000x256_1_0_0_1_n_n.contr.Idx) :
    (dot_S4000x16_S16x256_S4000x256_1_0_0_1_n_n.rhsIdx i q 0).val = (q ⟨0, by decide⟩).val :=
  dot_S4000x16_S16x256_S4000x256_1_0_0_1_n_n.rhsIdx_val_of_single rfl i q
theorem mulE_rhs1 (i : S4000x256.Idx) (q : dot_S4000x16_S16x256_S4000x256_1_0_0_1_n_n.contr.Idx) :
    (dot_S4000x16_S16x256_S4000x256_1_0_0_1_n_n.rhsIdx i q 1).val = (i 1).val := by
  unfold DotDims.rhsIdx
  rw [dif_neg (show ¬(1 : Fin S16x256.rank) ∈ dot_S4000x16_S16x256_S4000x256_1_0_0_1_n_n.rhsBatch by decide), dif_pos (show (1 : Fin S16x256.rank) ∈ dot_S4000x16_S16x256_S4000x256_1_0_0_1_n_n.rhsNonContracting by decide)]
  rfl

/-- The [4000,16] × [16,256] product into a zero accumulator, at entry (p, j): the sum over the 16 shared coordinates. -/
theorem mulE_apply {φ₁ φ₂ : FTy} (l : FVec Ideal S4000x16 φ₁) (r : FVec Ideal S16x256 φ₂) (p : Fin 4000) (j : Fin 256) :
    matmul dot_S4000x16_S16x256_S4000x256_1_0_0_1_n_n none l r (constant S4000x256 .f32 0x00000000#32) (ix2 p j)
      = ∑ k : Fin 16, l (ix2 p k) * r (ix2 k j) := by
  simp only [matmul]
  rw [Ideal.matmul_constant_zero_apply, ← Equiv.sum_comp (contrEquiv1 dot_S4000x16_S16x256_S4000x256_1_0_0_1_n_n 16 rfl rfl).symm]
  refine Finset.sum_congr rfl fun k _ => ?_
  have hk := contrEquiv1_symm_val dot_S4000x16_S16x256_S4000x256_1_0_0_1_n_n 16 rfl rfl k
  have el : dot_S4000x16_S16x256_S4000x256_1_0_0_1_n_n.lhsIdx (ix2 p j) ((contrEquiv1 dot_S4000x16_S16x256_S4000x256_1_0_0_1_n_n 16 rfl rfl).symm k) = ix2 p k := funext fun a => Fin.ext (by
    match a with
    | ⟨0, _⟩ => exact mulE_lhs0 _ _
    | ⟨1, _⟩ => exact (mulE_lhs1 _ _).trans hk)
  have er : dot_S4000x16_S16x256_S4000x256_1_0_0_1_n_n.rhsIdx (ix2 p j) ((contrEquiv1 dot_S4000x16_S16x256_S4000x256_1_0_0_1_n_n 16 rfl rfl).symm k) = ix2 k j := funext fun a => Fin.ext (by
    match a with
    | ⟨0, _⟩ => exact (mulE_rhs0 _ _).trans hk
    | ⟨1, _⟩ => exact mulE_rhs1 _ _)
  rw [el, er]

/-- Operand indices of the [4000,256] × [256,1] product at output entry `i` and contraction index `q`. -/
theorem mulW_lhs0 (i : S4000x1.Idx) (q : dot_S4000x256_S256x1_S4000x1_1_0_0_1_n_n.contr.Idx) :
    (dot_S4000x256_S256x1_S4000x1_1_0_0_1_n_n.lhsIdx i q 0).val = (i 0).val := by
  unfold DotDims.lhsIdx
  rw [dif_neg (show ¬(0 : Fin S4000x256.rank) ∈ dot_S4000x256_S256x1_S4000x1_1_0_0_1_n_n.lhsBatch by decide), dif_pos (show (0 : Fin S4000x256.rank) ∈ dot_S4000x256_S256x1_S4000x1_1_0_0_1_n_n.lhsNonContracting by decide)]
  rfl
theorem mulW_lhs1 (i : S4000x1.Idx) (q : dot_S4000x256_S256x1_S4000x1_1_0_0_1_n_n.contr.Idx) :
    (dot_S4000x256_S256x1_S4000x1_1_0_0_1_n_n.lhsIdx i q 1).val = (q ⟨0, by decide⟩).val :=
  dot_S4000x256_S256x1_S4000x1_1_0_0_1_n_n.lhsIdx_val_of_single rfl i q
theorem mulW_rhs0 (i : S4000x1.Idx) (q : dot_S4000x256_S256x1_S4000x1_1_0_0_1_n_n.contr.Idx) :
    (dot_S4000x256_S256x1_S4000x1_1_0_0_1_n_n.rhsIdx i q 0).val = (q ⟨0, by decide⟩).val :=
  dot_S4000x256_S256x1_S4000x1_1_0_0_1_n_n.rhsIdx_val_of_single rfl i q
theorem mulW_rhs1 (i : S4000x1.Idx) (q : dot_S4000x256_S256x1_S4000x1_1_0_0_1_n_n.contr.Idx) :
    (dot_S4000x256_S256x1_S4000x1_1_0_0_1_n_n.rhsIdx i q 1).val = (i 1).val := by
  unfold DotDims.rhsIdx
  rw [dif_neg (show ¬(1 : Fin S256x1.rank) ∈ dot_S4000x256_S256x1_S4000x1_1_0_0_1_n_n.rhsBatch by decide), dif_pos (show (1 : Fin S256x1.rank) ∈ dot_S4000x256_S256x1_S4000x1_1_0_0_1_n_n.rhsNonContracting by decide)]
  rfl

/-- The [4000,256] × [256,1] product into a zero accumulator, at entry (p, j): the sum over the 256 shared coordinates. -/
theorem mulW_apply {φ₁ φ₂ : FTy} (l : FVec Ideal S4000x256 φ₁) (r : FVec Ideal S256x1 φ₂) (p : Fin 4000) (j : Fin 1) :
    matmul dot_S4000x256_S256x1_S4000x1_1_0_0_1_n_n none l r (constant S4000x1 .f32 0x00000000#32) (ix2 p j)
      = ∑ k : Fin 256, l (ix2 p k) * r (ix2 k j) := by
  simp only [matmul]
  rw [Ideal.matmul_constant_zero_apply, ← Equiv.sum_comp (contrEquiv1 dot_S4000x256_S256x1_S4000x1_1_0_0_1_n_n 256 rfl rfl).symm]
  refine Finset.sum_congr rfl fun k _ => ?_
  have hk := contrEquiv1_symm_val dot_S4000x256_S256x1_S4000x1_1_0_0_1_n_n 256 rfl rfl k
  have el : dot_S4000x256_S256x1_S4000x1_1_0_0_1_n_n.lhsIdx (ix2 p j) ((contrEquiv1 dot_S4000x256_S256x1_S4000x1_1_0_0_1_n_n 256 rfl rfl).symm k) = ix2 p k := funext fun a => Fin.ext (by
    match a with
    | ⟨0, _⟩ => exact mulW_lhs0 _ _
    | ⟨1, _⟩ => exact (mulW_lhs1 _ _).trans hk)
  have er : dot_S4000x256_S256x1_S4000x1_1_0_0_1_n_n.rhsIdx (ix2 p j) ((contrEquiv1 dot_S4000x256_S256x1_S4000x1_1_0_0_1_n_n 256 rfl rfl).symm k) = ix2 k j := funext fun a => Fin.ext (by
    match a with
    | ⟨0, _⟩ => exact (mulW_rhs0 _ _).trans hk
    | ⟨1, _⟩ => exact mulW_rhs1 _ _)
  rw [el, er]

/-- The edge scorer's body at entry (p, c) of its output block, as a term of the entries of its ten input blocks:
    the three products of the pair's rows with the three pieces of the first weight, added in turn, then the bias
    row; the maximum with zero; the product with the second weight's column; the second bias; the offset last.
    Changes of float format are the identity on the extended reals, and the zero word denotes 0. -/
theorem pay_apply (x0 x1 : Vec Ideal S4000x256 .bf16) (x2 : Vec Ideal S4000x16 .f32) (x3 : Vec Ideal S4000x1 .f32)
    (x4 x5 : Vec Ideal S256x256 .bf16) (x6 : Vec Ideal S16x256 .bf16) (x7 : Vec Ideal S1x256 .f32)
    (x8 : Vec Ideal S256x1 .bf16) (x9 : Vec Ideal S1x1 .f32) (p : Fin 4000) (c : Fin 1) :
    k2_pay1 (k2_pay2 x0 x1 x2 x4 x5 x6 x7 x8 x9) x3 (ix2 p c)
      = ((∑ j : Fin 256,
            max ((((∑ k : Fin 256, x0 (ix2 p k) * x4 (ix2 k j)) + ∑ k : Fin 256, x1 (ix2 p k) * x5 (ix2 k j))
                   + ∑ k : Fin 16, x2 (ix2 p k) * x6 (ix2 k j))
                  + x7 (ix2 (0 : Fin 1) j)) 0
              * x8 (ix2 j c))
          + x9 (ix2 (0 : Fin 1) c))
        + x3 (ix2 p c) := by
  unfold k2_pay1 k2_pay2
  simp only [shapeCast_self]
  rw [addf_apply, addf_apply, mulW_apply, broadcastTo_1b_ab_apply]
  refine congrArg (fun s => (s + x9 (ix2 (0 : Fin 1) c)) + x3 (ix2 p c)) ?_
  refine Finset.sum_congr rfl fun j _ => ?_
  refine congrArg (fun s => s * x8 (ix2 j c)) ?_
  rw [truncf_apply, maximumf_apply, addf_apply, addf_apply, addf_apply, mulU_apply, mulU_apply, mulE_apply,
    broadcastTo_1b_ab_apply, broadcast_apply, Ideal.ofBits_def, Ideal.ofBits_zero_f32]
  rfl

end Cert.KernelIdeal.Head

end
-- ==== Proof.Head.lean ====
/-
  The value of the edge scorer's region: the result array after the region is the scorer's array of the ten arrays
  the region finds.

  The region runs the body at 125 points; at point `t` the four row arrays (the two gathered node rows [500000, 256],
  the edge rows [500000, 16], the offsets [500000, 1]) and the result [500000, 1] are staged through their blocks of 4000
  rows at block index `t`, and the weights and biases through their whole arrays. So entry (p, q) of the block the body
  leaves at point `t` is the body's term (the payload lemma) of rows `p` of the row blocks, which are rows `4000 t + p`
  of the arrays, and of the whole weights: the scorer's entry (4000 t + p, q). Every point writes its block back, and row
  `r` of the result lies in the block of point `r / 4000`; the blocks cover the array, which therefore ends holding the
  scorer's array whatever it held before.
-/
import proofs.«128267_j13993003450942_2_alg».proof.Proof.Spec
import proofs.«128267_j13993003450942_2_alg».proof.Proof.HeadPay
import proofs.«128267_j13993003450942_2_alg».proof.Proof.Gen.KernelIdeal.Frame
import Idealize.ShloMosaic.Lib.Pipeline.Value

noncomputable section

open scoped BigOperators

open Idealize.ShloMosaic Idealize.ShloMosaic.TcCoe Idealize.SL.Sem
open Idealize.ShloMosaic.Pipeline (Dat)
open Idealize.ShloMosaic.ValueIdx

namespace Cert.KernelIdeal.Head

open Cert.KernelIdeal Cert.KernelIdeal.Gen Cert.GraphSage

variable (V : (c : Dev nD) → (b : Ref sig .tc) → Buf (Elt Ideal) ((c : Thread nD τ).loc b))

/-- The zero offsets of a whole-block access, however spelt. -/
theorem zero_off : (![0, 0] : Fin 2 → Nat) = fun _ => 0 := funext fun a => by fin_cases a <;> rfl

/-- The printed index maps over the grid: at point `t` the blocks of the four row arrays and of the result are block
    `t` along the rows (and block 0 along the columns), -/
theorem index_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_10.index t (0 : Fin 2) = t.val ∧ win2_10.index t (1 : Fin 2) = 0) :=
  (by decide +kernel : ∀ t : Fin grid2.N, _)

/-- and the block of each weight and bias array is the whole array at every point. -/
theorem index_fixed : ∀ t : Fin cfg2.N,
    (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-- Row `p` of the block of the first row array at point `t` is row `4000 t + p` of the array. -/
theorem rows0_apply (c : Dev nD) (t : Fin cfg2.N) (x : S4000x256.Idx) (k : S500000x256.Idx)
    (hk0 : (k 0).val = t.val * 4000 + (x 0).val) (hk1 : (k 1).val = (x 1).val) :
    (iblk2 V c 0 t : S4000x256.Idx → EReal) x = (V c main_v54 : S500000x256.Idx → EReal) k := by
  obtain ⟨e0, e1⟩ := (index_rows t).1
  unfold iblk2
  rw [View.read_apply]
  show V c main_v54 _ = V c main_v54 _
  refine congrArg (V c main_v54) (funext fun a => Fin.ext ?_)
  match a with
  | ⟨0, _⟩ => show win2_0.index t (0 : Fin 2) * 4000 + 1 * (x 0).val = (k 0).val; rw [e0, hk0]; omega
  | ⟨1, _⟩ => show win2_0.index t (1 : Fin 2) * 256 + 1 * (x 1).val = (k 1).val; rw [e1, hk1]; omega

/-- Row `p` of the block of the second row array at point `t` is row `4000 t + p` of the array. -/
theorem rows1_apply (c : Dev nD) (t : Fin cfg2.N) (x : S4000x256.Idx) (k : S500000x256.Idx)
    (hk0 : (k 0).val = t.val * 4000 + (x 0).val) (hk1 : (k 1).val = (x 1).val) :
    (iblk2 V c 1 t : S4000x256.Idx → EReal) x = (V c main_v61 : S500000x256.Idx → EReal) k := by
  obtain ⟨e0, e1⟩ := (index_rows t).2.1
  unfold iblk2
  rw [View.read_apply]
  show V c main_v61 _ = V c main_v61 _
  refine congrArg (V c main_v61) (funext fun a => Fin.ext ?_)
  match a with
  | ⟨0, _⟩ => show win2_1.index t (0 : Fin 2) * 4000 + 1 * (x 0).val = (k 0).val; rw [e0, hk0]; omega
  | ⟨1, _⟩ => show win2_1.index t (1 : Fin 2) * 256 + 1 * (x 1).val = (k 1).val; rw [e1, hk1]; omega

/-- Row `p` of the block of the third row array at point `t` is row `4000 t + p` of the array. -/
theorem rows2_apply (c : Dev nD) (t : Fin cfg2.N) (x : S4000x16.Idx) (k : S500000x16.Idx)
    (hk0 : (k 0).val = t.val * 4000 + (x 0).val) (hk1 : (k 1).val = (x 1).val) :
    (iblk2 V c 2 t : S4000x16.Idx → EReal) x = (V c main_arg4 : S500000x16.Idx → EReal) k := by
  obtain ⟨e0, e1⟩ := (index_rows t).2.2.1
  unfold iblk2
  rw [View.read_apply]
  show V c main_arg4 _ = V c main_arg4 _
  refine congrArg (V c main_arg4) (funext fun a => Fin.ext ?_)
  match a with
  | ⟨0, _⟩ => show win2_2.index t (0 : Fin 2) * 4000 + 1 * (x 0).val = (k 0).val; rw [e0, hk0]; omega
  | ⟨1, _⟩ => show win2_2.index t (1 : Fin 2) * 16 + 1 * (x 1).val = (k 1).val; rw [e1, hk1]; omega

/-- Row `p` of the block of the offsets at point `t` is row `4000 t + p` of the array. -/
theorem rows3_apply (c : Dev nD) (t : Fin cfg2.N) (x : S4000x1.Idx) (k : S500000x1.Idx)
    (hk0 : (k 0).val = t.val * 4000 + (x 0).val) (hk1 : (k 1).val = (x 1).val) :
    (iblk2 V c 3 t : S4000x1.Idx → EReal) x = (V c main_v65 : S500000x1.Idx → EReal) k := by
  obtain ⟨e0, e1⟩ := (index_rows t).2.2.2.1
  unfold iblk2
  rw [View.read_apply]
  show V c main_v65 _ = V c main_v65 _
  refine congrArg (V c main_v65) (funext fun a => Fin.ext ?_)
  match a with
  | ⟨0, _⟩ => show win2_3.index t (0 : Fin 2) * 4000 + 1 * (x 0).val = (k 0).val; rw [e0, hk0]; omega
  | ⟨1, _⟩ => show win2_3.index t (1 : Fin 2) * 1 + 1 * (x 1).val = (k 1).val; rw [e1, hk1]; omega

/-- The block of the first weight's first piece at any point is the whole array. -/
theorem whole4_apply (c : Dev nD) (t : Fin cfg2.N) (x : S256x256.Idx) :
    (iblk2 V c 4 t : S256x256.Idx → EReal) x = (V c main_v67 : S256x256.Idx → EReal) x := by
  obtain ⟨e0, e1⟩ := (index_fixed t).1
  unfold iblk2
  rw [View.read_apply]
  show V c main_v67 _ = V c main_v67 _
  refine congrArg (V c main_v67) (funext fun a => Fin.ext ?_)
  match a with
  | ⟨0, _⟩ => show win2_4.index t (0 : Fin 2) * 256 + 1 * (x 0).val = (x 0).val; rw [e0]; omega
  | ⟨1, _⟩ => show win2_4.index t (1 : Fin 2) * 256 + 1 * (x 1).val = (x 1).val; rw [e1]; omega

/-- The block of the first weight's second piece at any point is the whole array. -/
theorem whole5_apply (c : Dev nD) (t : Fin cfg2.N) (x : S256x256.Idx) :
    (iblk2 V c 5 t : S256x256.Idx → EReal) x = (V c main_v69 : S256x256.Idx → EReal) x := by
  obtain ⟨e0, e1⟩ := (index_fixed t).2.1
  unfold iblk2
  rw [View.read_apply]
  show V c main_v69 _ = V c main_v69 _
  refine congrArg (V c main_v69) (funext fun a => Fin.ext ?_)
  match a with
  | ⟨0, _⟩ => show win2_5.index t (0 : Fin 2) * 256 + 1 * (x 0).val = (x 0).val; rw [e0]; omega
  | ⟨1, _⟩ => show win2_5.index t (1 : Fin 2) * 256 + 1 * (x 1).val = (x 1).val; rw [e1]; omega

/-- The block of the first weight's third piece at any point is the whole array. -/
theorem whole6_apply (c : Dev nD) (t : Fin cfg2.N) (x : S16x256.Idx) :
    (iblk2 V c 6 t : S16x256.Idx → EReal) x = (V c main_v71 : S16x256.Idx → EReal) x := by
  obtain ⟨e0, e1⟩ := (index_fixed t).2.2.1
  unfold iblk2
  rw [View.read_apply]
  show V c main_v71 _ = V c main_v71 _
  refine congrArg (V c main_v71) (funext fun a => Fin.ext ?_)
  match a with
  | ⟨0, _⟩ => show win2_6.index t (0 : Fin 2) * 16 + 1 * (x 0).val = (x 0).val; rw [e0]; omega
  | ⟨1, _⟩ => show win2_6.index t (1 : Fin 2) * 256 + 1 * (x 1).val = (x 1).val; rw [e1]; omega

/-- The block of the first bias at any point is the whole array. -/
theorem whole7_apply (c : Dev nD) (t : Fin cfg2.N) (x : S1x256.Idx) :
    (iblk2 V c 7 t : S1x256.Idx → EReal) x = (V c main_v74 : S1x256.Idx → EReal) x := by
  obtain ⟨e0, e1⟩ := (index_fixed t).2.2.2.1
  unfold iblk2
  rw [View.read_apply]
  show V c main_v74 _ = V c main_v74 _
  refine congrArg (V c main_v74) (funext fun a => Fin.ext ?_)
  match a with
  | ⟨0, _⟩ => show win2_7.index t (0 : Fin 2) * 1 + 1 * (x 0).val = (x 0).val; rw [e0]; omega
  | ⟨1, _⟩ => show win2_7.index t (1 : Fin 2) * 256 + 1 * (x 1).val = (x 1).val; rw [e1]; omega

/-- The block of the second weight at any point is the whole array. -/
theorem whole8_apply (c : Dev nD) (t : Fin cfg2.N) (x : S256x1.Idx) :
    (iblk2 V c 8 t : S256x1.Idx → EReal) x = (V c main_v73 : S256x1.Idx → EReal) x := by
  obtain ⟨e0, e1⟩ := (index_fixed t).2.2.2.2.1
  unfold iblk2
  rw [View.read_apply]
  show V c main_v73 _ = V c main_v73 _
  refine congrArg (V c main_v73) (funext fun a => Fin.ext ?_)
  match a with
  | ⟨0, _⟩ => show win2_8.index t (0 : Fin 2) * 256 + 1 * (x 0).val = (x 0).val; rw [e0]; omega
  | ⟨1, _⟩ => show win2_8.index t (1 : Fin 2) * 1 + 1 * (x 1).val = (x 1).val; rw [e1]; omega

/-- The block of the second bias at any point is the whole array. -/
theorem whole9_apply (c : Dev nD) (t : Fin cfg2.N) (x : S1x1.Idx) :
    (iblk2 V c 9 t : S1x1.Idx → EReal) x = (V c main_v75 : S1x1.Idx → EReal) x := by
  obtain ⟨e0, e1⟩ := (index_fixed t).2.2.2.2.2
  unfold iblk2
  rw [View.read_apply]
  show V c main_v75 _ = V c main_v75 _
  refine congrArg (V c main_v75) (funext fun a => Fin.ext ?_)
  match a with
  | ⟨0, _⟩ => show win2_9.index t (0 : Fin 2) * 1 + 1 * (x 0).val = (x 0).val; rw [e0]; omega
  | ⟨1, _⟩ => show win2_9.index t (1 : Fin 2) * 1 + 1 * (x 1).val = (x 1).val; rw [e1]; omega

/-- The body's entry (p, q) is entry (r, q) of the scorer, when the blocks' rows `p` are the arrays' rows `r` and the
    weight and bias blocks are the whole arrays: the body's term and the scorer's are the same sums in the same order. -/
theorem pay_eq_headTAt (x0 x1 : Vec Ideal S4000x256 .bf16) (x2 : Vec Ideal S4000x16 .f32) (x3 : Vec Ideal S4000x1 .f32)
    (x4 x5 : Vec Ideal S256x256 .bf16) (x6 : Vec Ideal S16x256 .bf16) (x7 : Vec Ideal S1x256 .f32)
    (x8 : Vec Ideal S256x1 .bf16) (x9 : Vec Ideal S1x1 .f32)
    (HU HV : Arr2 500000 256) (EA : Arr2 500000 16) (LE : Arr2 500000 1) (W1uT W1vT : Arr2 256 256) (W1eT : Arr2 16 256)
    (B1 : Arr2 1 256) (W2T : Arr2 256 1) (B2 : Arr2 1 1) (p : Fin 4000) (q : Fin 1) (r : Fin 500000)
    (h0 : ∀ k : Fin 256, x0 (ix2 p k) = HU (ix2 r k)) (h1 : ∀ k : Fin 256, x1 (ix2 p k) = HV (ix2 r k))
    (h2 : ∀ k : Fin 16, x2 (ix2 p k) = EA (ix2 r k)) (h3 : x3 (ix2 p q) = LE (ix2 r q))
    (h4 : ∀ (k : Fin 256) (j : Fin 256), x4 (ix2 k j) = W1uT (ix2 k j))
    (h5 : ∀ (k : Fin 256) (j : Fin 256), x5 (ix2 k j) = W1vT (ix2 k j))
    (h6 : ∀ (k : Fin 16) (j : Fin 256), x6 (ix2 k j) = W1eT (ix2 k j))
    (h7 : ∀ j : Fin 256, x7 (ix2 (0 : Fin 1) j) = B1 (ix2 (0 : Fin 1) j))
    (h8 : ∀ j : Fin 256, x8 (ix2 j q) = W2T (ix2 j q))
    (h9 : x9 (ix2 (0 : Fin 1) q) = B2 (ix2 (0 : Fin 1) q)) :
    k2_pay1 (k2_pay2 x0 x1 x2 x4 x5 x6 x7 x8 x9) x3 (ix2 p q)
      = headTAt 500000 HU HV EA LE W1uT W1vT W1eT B1 W2T B2 r q := by
  rw [pay_apply]
  unfold headTAt
  simp only [h0, h1, h2, h3, h4, h5, h6, h7, h8, h9]

/-- The scorer's array at an index with coordinates (r, q) is its entry (r, q). -/
theorem headT_at (HU HV : Arr2 500000 256) (EA : Arr2 500000 16) (LE : Arr2 500000 1) (W1uT W1vT : Arr2 256 256)
    (W1eT : Arr2 16 256) (B1 : Arr2 1 256) (W2T : Arr2 256 1) (B2 : Arr2 1 1) (i : S500000x1.Idx) (r : Fin 500000) (q : Fin 1)
    (hr : (i 0).val = r.val) (hq : (i 1).val = q.val) :
    headT 500000 HU HV EA LE W1uT W1vT W1eT B1 W2T B2 i = headTAt 500000 HU HV EA LE W1uT W1vT W1eT B1 W2T B2 r q := by
  unfold headT
  have e0 : i 0 = r := Fin.ext hr
  have e1 : i 1 = q := Fin.ext hq
  rw [e0, e1]

/-- WHAT POINT `t` WRITES BACK is block `t` of the scorer's array of the ten arrays as the region finds them: the
    body's result block is the body's term of the input blocks, each input block reads its array where the result
    block's rows lie, and the term at an entry is the scorer's entry. -/
theorem flushed_eq (c : Dev nD) (t : Fin cfg2.N) :
    (dat2 (F := Ideal) V c).flushed 10 t
      = ((cfg2.win 10).blk t).view.read (Elt Ideal)
          (headT 500000 (V c main_v54) (V c main_v61) (V c main_arg4) (V c main_v65) (V c main_v67) (V c main_v69)
            (V c main_v71) (V c main_v74) (V c main_v73) (V c main_v75)) := by
  show (cfg2.win 10).cut (grid2.coords t) ((dat2 V c).after 10 t) = _
  rw [after2_10]
  unfold out2_10
  rw [View.canon_unit_zero zero_off]
  simp only [View.ld_unit_zero (S := S4000x256) zero_off, View.ld_unit_zero (S := S4000x16) zero_off,
    View.ld_unit_zero (S := S4000x1) zero_off, View.ld_unit_zero (S := S256x256) zero_off,
    View.ld_unit_zero (S := S16x256) zero_off, View.ld_unit_zero (S := S1x256) zero_off,
    View.ld_unit_zero (S := S256x1) zero_off, View.ld_unit_zero (S := S1x1) zero_off]
  funext (y : S4000x1.Idx)
  obtain ⟨p, q, rfl⟩ : ∃ (p : Fin 4000) (q : Fin 1), y = ix2 p q := ⟨y 0, y 1, eq_ix2 y⟩
  have hN : grid2.N = 125 := N_2
  have ht : t.val < grid2.N := t.isLt
  have hp : t.val * 4000 + p.val < 500000 := by have := p.isLt; omega
  obtain ⟨e0, e1⟩ := (index_rows t).2.2.2.2
  show k2_pay1 (k2_pay2 (iblk2 V c 0 t) (iblk2 V c 1 t) (iblk2 V c 2 t) (iblk2 V c 4 t) (iblk2 V c 5 t) (iblk2 V c 6 t)
        (iblk2 V c 7 t) (iblk2 V c 8 t) (iblk2 V c 9 t)) (iblk2 V c 3 t) (ix2 p q)
      = headT 500000 (V c main_v54) (V c main_v61) (V c main_arg4) (V c main_v65) (V c main_v67) (V c main_v69)
          (V c main_v71) (V c main_v74) (V c main_v73) (V c main_v75) (((cfg2.win 10).blk t).view.emb (ix2 p q))
  refine (pay_eq_headTAt (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t)
    (V c main_v54) (V c main_v61) (V c main_arg4) (V c main_v65) (V c main_v67) (V c main_v69)
    (V c main_v71) (V c main_v74) (V c main_v73) (V c main_v75) p q ⟨t.val * 4000 + p.val, hp⟩
    (fun k => rows0_apply V c t (ix2 p k) (ix2 ⟨t.val * 4000 + p.val, hp⟩ k) rfl rfl)
    (fun k => rows1_apply V c t (ix2 p k) (ix2 ⟨t.val * 4000 + p.val, hp⟩ k) rfl rfl)
    (fun k => rows2_apply V c t (ix2 p k) (ix2 ⟨t.val * 4000 + p.val, hp⟩ k) rfl rfl)
    (rows3_apply V c t (ix2 p q) (ix2 ⟨t.val * 4000 + p.val, hp⟩ q) rfl rfl)
    (fun k j => whole4_apply V c t (ix2 k j)) (fun k j => whole5_apply V c t (ix2 k j))
    (fun k j => whole6_apply V c t (ix2 k j)) (fun j => whole7_apply V c t (ix2 (0 : Fin 1) j))
    (fun j => whole8_apply V c t (ix2 j q)) (whole9_apply V c t (ix2 (0 : Fin 1) q))).trans ?_
  refine (headT_at (V c main_v54) (V c main_v61) (V c main_arg4) (V c main_v65) (V c main_v67) (V c main_v69)
    (V c main_v71) (V c main_v74) (V c main_v73) (V c main_v75) (((cfg2.win 10).blk t).view.emb (ix2 p q))
    ⟨t.val * 4000 + p.val, hp⟩ q ?_ ?_).symm
  · show win2_10.index t (0 : Fin 2) * 4000 + 1 * p.val = t.val * 4000 + p.val
    rw [e0]; omega
  · show win2_10.index t (1 : Fin 2) * 1 + 1 * q.val = q.val
    rw [e1]; omega

/-- An index of the result array is in point `t`'s block iff each coordinate is in the block's range on its axis. -/
theorem mem_blk (t : Fin cfg2.N) (i : S500000x1.Idx) :
    i ∈ ((cfg2.win 10).blk t).view.set
      ↔ ∀ a : Fin 2, win2_10.index t a * S4000x1.size a ≤ (i a).val ∧ (i a).val < win2_10.index t a * S4000x1.size a + S4000x1.size a := by
  show i ∈ ((View.whole main_v76).slice (win2_10.rect t)).set ↔ _
  rw [View.set_slice_whole, Rect.mem_set_unit]
  exact Iff.rfl

/-- The blocks cover the array: row `r` lies in the block of point `r / 4000`, and every point writes its block back. -/
theorem cover (i : S500000x1.Idx) :
    ∃ t : Fin cfg2.N, (cfg2.win 10).flush t = true ∧ i ∈ ((cfg2.win 10).blk t).view.set := by
  have hi0 : (i 0).val < 500000 := (i 0).isLt
  have hi1 : (i 1).val < 1 := (i 1).isLt
  have hN : grid2.N = 125 := N_2
  obtain ⟨t, ht⟩ : ∃ t : Fin cfg2.N, t.val = (i 0).val / 4000 :=
    ⟨⟨(i 0).val / 4000, by show (i 0).val / 4000 < grid2.N; omega⟩, rfl⟩
  obtain ⟨e0, e1⟩ := (index_rows t).2.2.2.2
  refine ⟨t, flush2_10 t, ?_⟩
  rw [mem_blk]
  intro a
  match a with
  | ⟨0, _⟩ =>
    show win2_10.index t (0 : Fin 2) * 4000 ≤ (i 0).val ∧ (i 0).val < win2_10.index t (0 : Fin 2) * 4000 + 4000
    rw [e0, ht]; omega
  | ⟨1, _⟩ =>
    show win2_10.index t (1 : Fin 2) * 1 ≤ (i 1).val ∧ (i 1).val < win2_10.index t (1 : Fin 2) * 1 + 1
    rw [e1]; omega

/-- The result array after the region: the scorer's array of the ten arrays as the region finds them. -/
theorem final (c : Dev nD) :
    (dat2 (F := Ideal) V c).arrAt 10 cfg2.N
      = headT 500000 (V c main_v54) (V c main_v61) (V c main_arg4) (V c main_v65) (V c main_v67) (V c main_v69)
          (V c main_v71) (V c main_v74) (V c main_v73) (V c main_v75) :=
  (dat2 (F := Ideal) V c).arrAt_eq_of_cover 10
    (headT 500000 (V c main_v54) (V c main_v61) (V c main_arg4) (V c main_v65) (V c main_v67) (V c main_v69)
      (V c main_v71) (V c main_v74) (V c main_v73) (V c main_v75))
    (fun t _ => flushed_eq V c t) cover

end Cert.KernelIdeal.Head

end
-- ==== Proof.RefLayer.lean ====
/-
  The reference program's stages read as the graph network's mathematics.

  Each layer stage of the reference is, entry by entry, the layer of the specification: the two `dot_general`s are the
  inner products of a row of the aggregated (resp. root) features with a row of the weight matrix (the reference
  transposes the weight first, which only renames the index), the bias row is broadcast over the nodes and added
  between the two inner products, and the rectifier is the maximum with the zero word, which is 0 on the extended reals.
  The aggregation itself (gather, scatter-add, division by the clamped degree) is kept as one opaque array.
-/
import proofs.«128267_j13993003450942_2_alg».proof.Proof.Gen.ReferenceIdeal.Read
import proofs.«128267_j13993003450942_2_alg».proof.Proof.Spec

noncomputable section

open scoped BigOperators

namespace Cert.ReferenceIdeal.RefValue

open Cert.ReferenceIdeal Cert.ReferenceIdeal.Gen Cert.ReferenceIdeal.Read Cert.GraphSage
open Idealize.ShloMosaic Idealize.ShloMosaic.ValueIdx

/-! ## Layer 1: the index functions of the stages, at the entry (r, j) -/

theorem lidx24 (r : Fin 50000) (j : Fin 256) (k : Fin 128) : lidx_main_v24 (ix2 r j) k = ix2 r k :=
  funext fun a => Fin.ext (by match a with | ⟨0, _⟩ => rfl | ⟨1, _⟩ => rfl)
theorem ridx24 (r : Fin 50000) (j : Fin 256) (k : Fin 128) : idx_main_v23 (ridx_main_v24 (ix2 r j) k) = ix2 j k :=
  funext fun a => Fin.ext (by match a with | ⟨0, _⟩ => rfl | ⟨1, _⟩ => rfl)
theorem bidx26 (r : Fin 50000) (j : Fin 256) : idx_main_v25 (idx_main_v26 (ix2 r j)) = ix1 j :=
  funext fun a => Fin.ext (by match a with | ⟨0, _⟩ => rfl)
theorem lidx29 (r : Fin 50000) (j : Fin 256) (k : Fin 128) : lidx_main_v29 (ix2 r j) k = ix2 r k :=
  funext fun a => Fin.ext (by match a with | ⟨0, _⟩ => rfl | ⟨1, _⟩ => rfl)
theorem ridx29 (r : Fin 50000) (j : Fin 256) (k : Fin 128) : idx_main_v28 (ridx_main_v29 (ix2 r j) k) = ix2 j k :=
  funext fun a => Fin.ext (by match a with | ⟨0, _⟩ => rfl | ⟨1, _⟩ => rfl)

/-- The first layer of the reference is the specification's layer of the aggregated features and the node features. -/
theorem layer1_eq (x0 : (⟨S50000x128, .f32⟩ : BufTy).Contents (Elt Ideal)) (x1 : (⟨S2x800000, .i32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) :
    val_main_v31 (F := Ideal) x0 x1 x6 x7 x8 = layer 50000 128 (val_main_v22 (F := Ideal) x0 x1) x0 x6 x8 x7 := by
  funext i
  obtain ⟨r, j, rfl⟩ : ∃ (r : Fin 50000) (j : Fin 256), i = ix2 r j := ⟨i 0, i 1, eq_ix2 i⟩
  rw [val_main_v31_apply, val_main_v30_apply, val_main_v27_apply, val_main_v24_apply, val_main_v26_apply,
    val_main_v25_apply, val_main_v29_apply, val_main_call0_v0_apply, val_main_call0_cst_apply]
  simp only [val_main_v23_apply, val_main_v28_apply, lidx24, ridx24, bidx26, lidx29, ridx29,
    Ideal.maximumf_def, Ideal.addf_def, Ideal.ofBits_def, Ideal.ofBits_zero_f32]
  simp only [layer, layerAt]

/-! ## Layer 2: the same reading, over the first layer's output -/

theorem lidx52 (r : Fin 50000) (j : Fin 256) (k : Fin 256) : lidx_main_v52 (ix2 r j) k = ix2 r k :=
  funext fun a => Fin.ext (by match a with | ⟨0, _⟩ => rfl | ⟨1, _⟩ => rfl)
theorem ridx52 (r : Fin 50000) (j : Fin 256) (k : Fin 256) : idx_main_v51 (ridx_main_v52 (ix2 r j) k) = ix2 j k :=
  funext fun a => Fin.ext (by match a with | ⟨0, _⟩ => rfl | ⟨1, _⟩ => rfl)
theorem bidx54 (r : Fin 50000) (j : Fin 256) : idx_main_v53 (idx_main_v54 (ix2 r j)) = ix1 j :=
  funext fun a => Fin.ext (by match a with | ⟨0, _⟩ => rfl)
theorem lidx57 (r : Fin 50000) (j : Fin 256) (k : Fin 256) : lidx_main_v57 (ix2 r j) k = ix2 r k :=
  funext fun a => Fin.ext (by match a with | ⟨0, _⟩ => rfl | ⟨1, _⟩ => rfl)
theorem ridx57 (r : Fin 50000) (j : Fin 256) (k : Fin 256) : idx_main_v56 (ridx_main_v57 (ix2 r j) k) = ix2 j k :=
  funext fun a => Fin.ext (by match a with | ⟨0, _⟩ => rfl | ⟨1, _⟩ => rfl)

/-- The second layer of the reference is the specification's layer of the aggregated first-layer rows and the
    first-layer rows themselves. -/
theorem layer2_eq (x0 : (⟨S50000x128, .f32⟩ : BufTy).Contents (Elt Ideal)) (x1 : (⟨S2x800000, .i32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) :
    val_main_v59 (F := Ideal) x0 x1 x6 x7 x8 x9 x10 x11
      = layer 50000 256 (val_main_v50 (F := Ideal) x0 x1 x6 x7 x8) (val_main_v31 (F := Ideal) x0 x1 x6 x7 x8) x9 x11 x10 := by
  funext i
  obtain ⟨r, j, rfl⟩ : ∃ (r : Fin 50000) (j : Fin 256), i = ix2 r j := ⟨i 0, i 1, eq_ix2 i⟩
  rw [val_main_v59_apply, val_main_v58_apply, val_main_v55_apply, val_main_v52_apply, val_main_v54_apply,
    val_main_v53_apply, val_main_v57_apply, val_main_call1_v0_apply, val_main_call1_cst_apply]
  simp only [val_main_v51_apply, val_main_v56_apply, lidx52, ridx52, bidx54, lidx57, ridx57,
    Ideal.maximumf_def, Ideal.addf_def, Ideal.ofBits_def, Ideal.ofBits_zero_f32]
  simp only [layer, layerAt]

end Cert.ReferenceIdeal.RefValue

end
-- ==== Proof.RefHead.lean ====
/-
  The reference program's edge scorer read as the specification's scorer.

  The reference joins, for every pair p, the gathered source row, the gathered destination row and the edge attributes
  into one row of length 528 = 256 + 256 + 16 (a concatenation along the column axis: a column below 256 falls in the first
  piece, one in [256, 512) in the second at the column less 256, one from 512 on in the third at the column less 512).
  Hidden unit j is the maximum with zero of the inner product of that row with row j of the first weight (transposed by
  the reference before the `dot_general`, which only renames the index) plus the first bias; the score is the inner
  product of the hidden units with the single row of the second weight, plus the second bias, and the offset is added
  in front. The zero word of the rectifier is 0 on the extended reals. The two gathers are kept as opaque arrays.
-/
import proofs.«128267_j13993003450942_2_alg».proof.Proof.Gen.ReferenceIdeal.Read
import proofs.«128267_j13993003450942_2_alg».proof.Proof.Spec

noncomputable section

open scoped BigOperators

namespace Cert.ReferenceIdeal.RefValue

open Cert.ReferenceIdeal Cert.ReferenceIdeal.Gen Cert.ReferenceIdeal.Read Cert.GraphSage
open Idealize.ShloMosaic Idealize.ShloMosaic.ValueIdx

/-! ## The concatenated row: columns [0, 256) are the source rows, [256, 512) the destination rows, [512, 528) the edge attributes -/

/-- Columns [0, 256) of the concatenated row are the gathered source rows. -/
theorem concat_u (x0 : (⟨S50000x128, .f32⟩ : BufTy).Contents (Elt Ideal)) (x1 : (⟨S2x800000, .i32⟩ : BufTy).Contents (Elt Ideal)) (x2 : (⟨S500000, .i32⟩ : BufTy).Contents (Elt Ideal)) (x3 : (⟨S500000, .i32⟩ : BufTy).Contents (Elt Ideal)) (x4 : (⟨S500000x16, .f32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (p : Fin 500000) (k : Fin 256) :
    val_main_v74 (F := Ideal) x0 x1 x2 x3 x4 x6 x7 x8 x9 x10 x11 (ix2 p (⟨k.val, by omega⟩ : Fin 528))
      = val_main_v66 (F := Ideal) x0 x1 x2 x6 x7 x8 x9 x10 x11 (ix2 p k) := by
  unfold val_main_v74
  generalize val_main_v66 (F := Ideal) x0 x1 x2 x6 x7 x8 x9 x10 x11 = u
  generalize val_main_v73 (F := Ideal) x0 x1 x3 x6 x7 x8 x9 x10 x11 = v
  refine concatenate_apply_piece (t := S500000x528) (1 : Fin 2) [⟨S500000x256, u⟩, ⟨S500000x256, v⟩, ⟨S500000x16, x4⟩] concatenates_S500000x256_S500000x256_S500000x16_S500000x528_d1
    (ix2 p (⟨k.val, by omega⟩ : Fin 528)) 0 (by show (0 : Nat) < 3; omega) S500000x256 u rfl rfl 0 rfl (ix2 p k)
    (fun b hb => by match b with | ⟨0, _⟩ => rfl | ⟨1, _⟩ => exact absurd rfl hb)
    (by show 0 + k.val = k.val; omega)

/-- Columns [256, 512) of the concatenated row are the gathered destination rows. -/
theorem concat_v (x0 : (⟨S50000x128, .f32⟩ : BufTy).Contents (Elt Ideal)) (x1 : (⟨S2x800000, .i32⟩ : BufTy).Contents (Elt Ideal)) (x2 : (⟨S500000, .i32⟩ : BufTy).Contents (Elt Ideal)) (x3 : (⟨S500000, .i32⟩ : BufTy).Contents (Elt Ideal)) (x4 : (⟨S500000x16, .f32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (p : Fin 500000) (k : Fin 256) :
    val_main_v74 (F := Ideal) x0 x1 x2 x3 x4 x6 x7 x8 x9 x10 x11 (ix2 p (⟨256 + k.val, by omega⟩ : Fin 528))
      = val_main_v73 (F := Ideal) x0 x1 x3 x6 x7 x8 x9 x10 x11 (ix2 p k) := by
  unfold val_main_v74
  generalize val_main_v66 (F := Ideal) x0 x1 x2 x6 x7 x8 x9 x10 x11 = u
  generalize val_main_v73 (F := Ideal) x0 x1 x3 x6 x7 x8 x9 x10 x11 = v
  refine concatenate_apply_piece (t := S500000x528) (1 : Fin 2) [⟨S500000x256, u⟩, ⟨S500000x256, v⟩, ⟨S500000x16, x4⟩] concatenates_S500000x256_S500000x256_S500000x16_S500000x528_d1
    (ix2 p (⟨256 + k.val, by omega⟩ : Fin 528)) 1 (by show (1 : Nat) < 3; omega) S500000x256 v rfl rfl 256 rfl (ix2 p k)
    (fun b hb => by match b with | ⟨0, _⟩ => rfl | ⟨1, _⟩ => exact absurd rfl hb)
    (by show 256 + k.val = 256 + k.val; omega)

/-- Columns [512, 528) of the concatenated row are the edge attributes. -/
theorem concat_e (x0 : (⟨S50000x128, .f32⟩ : BufTy).Contents (Elt Ideal)) (x1 : (⟨S2x800000, .i32⟩ : BufTy).Contents (Elt Ideal)) (x2 : (⟨S500000, .i32⟩ : BufTy).Contents (Elt Ideal)) (x3 : (⟨S500000, .i32⟩ : BufTy).Contents (Elt Ideal)) (x4 : (⟨S500000x16, .f32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (p : Fin 500000) (k : Fin 16) :
    val_main_v74 (F := Ideal) x0 x1 x2 x3 x4 x6 x7 x8 x9 x10 x11 (ix2 p (⟨512 + k.val, by omega⟩ : Fin 528))
      = x4 (ix2 p k) := by
  unfold val_main_v74
  generalize val_main_v66 (F := Ideal) x0 x1 x2 x6 x7 x8 x9 x10 x11 = u
  generalize val_main_v73 (F := Ideal) x0 x1 x3 x6 x7 x8 x9 x10 x11 = v
  refine concatenate_apply_piece (t := S500000x528) (1 : Fin 2) [⟨S500000x256, u⟩, ⟨S500000x256, v⟩, ⟨S500000x16, x4⟩] concatenates_S500000x256_S500000x256_S500000x16_S500000x528_d1
    (ix2 p (⟨512 + k.val, by omega⟩ : Fin 528)) 2 (by show (2 : Nat) < 3; omega) S500000x16 x4 rfl rfl 512 rfl (ix2 p k)
    (fun b hb => by match b with | ⟨0, _⟩ => rfl | ⟨1, _⟩ => exact absurd rfl hb)
    (by show 512 + k.val = 512 + k.val; omega)

/-! ## The edge scorer -/

theorem lidx76 (p : Fin 500000) (j : Fin 256) (k : Fin 528) : lidx_main_v76 (ix2 p j) k = ix2 p k :=
  funext fun a => Fin.ext (by match a with | ⟨0, _⟩ => rfl | ⟨1, _⟩ => rfl)
theorem ridx76 (p : Fin 500000) (j : Fin 256) (k : Fin 528) : idx_main_v75 (ridx_main_v76 (ix2 p j) k) = ix2 j k :=
  funext fun a => Fin.ext (by match a with | ⟨0, _⟩ => rfl | ⟨1, _⟩ => rfl)
theorem bidx78 (p : Fin 500000) (j : Fin 256) : idx_main_v77 (idx_main_v78 (ix2 p j)) = ix1 j :=
  funext fun a => Fin.ext (by match a with | ⟨0, _⟩ => rfl)

/-- Hidden unit j of pair p: the rectified inner product of the concatenated row with row j of the first weight, plus
    the first bias. -/
theorem hidden_eq (x0 : (⟨S50000x128, .f32⟩ : BufTy).Contents (Elt Ideal)) (x1 : (⟨S2x800000, .i32⟩ : BufTy).Contents (Elt Ideal)) (x2 : (⟨S500000, .i32⟩ : BufTy).Contents (Elt Ideal)) (x3 : (⟨S500000, .i32⟩ : BufTy).Contents (Elt Ideal)) (x4 : (⟨S500000x16, .f32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x528, .f32⟩ : BufTy).Contents (Elt Ideal)) (x13 : (⟨S256, .f32⟩ : BufTy).Contents (Elt Ideal)) (p : Fin 500000) (j : Fin 256) :
    val_main_v80 (F := Ideal) x0 x1 x2 x3 x4 x6 x7 x8 x9 x10 x11 x12 x13 (ix2 p j)
      = max ((∑ k : Fin 528, val_main_v74 (F := Ideal) x0 x1 x2 x3 x4 x6 x7 x8 x9 x10 x11 (ix2 p k) * x12 (ix2 j k)) + x13 (ix1 j)) 0 := by
  rw [val_main_v80_apply, val_main_v79_apply, val_main_v76_apply, val_main_v78_apply, val_main_v77_apply,
    val_main_call2_v0_apply, val_main_call2_cst_apply, bidx78]
  simp only [val_main_v75_apply, lidx76, ridx76,
    Ideal.maximumf_def, Ideal.addf_def, Ideal.ofBits_def, Ideal.ofBits_zero_f32]

theorem lidx82 (p : Fin 500000) (j : Fin 256) : lidx_main_v82 (idx_main_v86 (ix1 p)) j = ix2 p j :=
  funext fun a => Fin.ext (by match a with | ⟨0, _⟩ => exact Nat.div_one _ | ⟨1, _⟩ => rfl)
theorem ridx82 (p : Fin 500000) (j : Fin 256) : idx_main_v81 (ridx_main_v82 (idx_main_v86 (ix1 p)) j) = ix2 (0 : Fin 1) j :=
  funext fun a => Fin.ext (by match a with | ⟨0, _⟩ => rfl | ⟨1, _⟩ => rfl)
theorem bidx84 (p : Fin 500000) : idx_main_v83 (idx_main_v84 (idx_main_v86 (ix1 p))) = ix1 (0 : Fin 1) :=
  funext fun a => Fin.ext (by match a with | ⟨0, _⟩ => rfl)

/-- The reference's result is the specification's scorer of the concatenated rows. -/
theorem head_eq (x0 : (⟨S50000x128, .f32⟩ : BufTy).Contents (Elt Ideal)) (x1 : (⟨S2x800000, .i32⟩ : BufTy).Contents (Elt Ideal)) (x2 : (⟨S500000, .i32⟩ : BufTy).Contents (Elt Ideal)) (x3 : (⟨S500000, .i32⟩ : BufTy).Contents (Elt Ideal)) (x4 : (⟨S500000x16, .f32⟩ : BufTy).Contents (Elt Ideal)) (x5 : (⟨S500000, .f32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x528, .f32⟩ : BufTy).Contents (Elt Ideal)) (x13 : (⟨S256, .f32⟩ : BufTy).Contents (Elt Ideal)) (x14 : (⟨S1x256, .f32⟩ : BufTy).Contents (Elt Ideal)) (x15 : (⟨S1, .f32⟩ : BufTy).Contents (Elt Ideal)) :
    val_main_v87 (F := Ideal) x0 x1 x2 x3 x4 x5 x6 x7 x8 x9 x10 x11 x12 x13 x14 x15
      = head 500000 (val_main_v74 (F := Ideal) x0 x1 x2 x3 x4 x6 x7 x8 x9 x10 x11) x5 x12 x13 x14 x15 := by
  funext i
  obtain ⟨p, rfl⟩ : ∃ p : Fin 500000, i = ix1 p := ⟨i 0, eq_ix1 i⟩
  rw [val_main_v87_apply, val_main_v86_apply, val_main_v85_apply, val_main_v82_apply, val_main_v84_apply,
    val_main_v83_apply, bidx84]
  simp only [val_main_v81_apply, lidx82, ridx82, hidden_eq, Ideal.addf_def]
  simp only [head, headAt]

end Cert.ReferenceIdeal.RefValue

end
-- ==== Proof.Final.lean ====
/-
  The idealized kernel's result is the reference's function of the kernel's own arguments.
  Layer by layer: the first region's output is the first layer in the bias-in-the-middle order, which is how the
  reference's first layer reads entry by entry; so the host's second neighbour means agree and the second region's
  output is the reference's second layer; so the rows gathered for each pair agree.  The third region's output column is
  the scorer in its piecewise form of what it found: the gathered rows, the pair features, the offset as a column, the
  three column ranges of the first weight transposed, the bias row, the second weight as a column and its bias.  The
  piecewise and concatenated forms of the scorer agree at every pair (a 528-term sum split at 256 and 512), and the
  concatenated form is how the reference's result reads entry by entry.  The last host operation drops the unit axis.
-/
import proofs.«128267_j13993003450942_2_alg».proof.Proof.Gen.KernelIdeal.Frame
import proofs.«128267_j13993003450942_2_alg».proof.Proof.Gen.ReferenceIdeal.Read
import proofs.«128267_j13993003450942_2_alg».proof.Proof.Spec
import proofs.«128267_j13993003450942_2_alg».proof.Proof.Glue1
import proofs.«128267_j13993003450942_2_alg».proof.Proof.Glue2
import proofs.«128267_j13993003450942_2_alg».proof.Proof.Head
import proofs.«128267_j13993003450942_2_alg».proof.Proof.RefLayer
import proofs.«128267_j13993003450942_2_alg».proof.Proof.RefHead
import Idealize.ShloMosaic.Lib.ValueLayout
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

open Cert.GraphSage

/-- The first layer's output is the reference's. -/
theorem h1_ref :
    (W2 m ρ c (Proc.devRef .tc main_v28) : S50000x256.Idx → EReal)
      = Cert.ReferenceIdeal.Read.val_main_v31 (F := Ideal) (m ((c : Thread nD τ).loc main_arg0)) (m ((c : Thread nD τ).loc main_arg1)) (m ((c : Thread nD τ).loc main_arg6)) (m ((c : Thread nD τ).loc main_arg7)) (m ((c : Thread nD τ).loc main_arg8)) :=
  (h1_layer m ρ c).trans (Cert.ReferenceIdeal.RefValue.layer1_eq (m ((c : Thread nD τ).loc main_arg0)) (m ((c : Thread nD τ).loc main_arg1)) (m ((c : Thread nD τ).loc main_arg6)) (m ((c : Thread nD τ).loc main_arg7)) (m ((c : Thread nD τ).loc main_arg8))).symm

/-- The second layer's output is the reference's. -/
theorem h2_ref :
    (W4 m ρ c (Proc.devRef .tc main_v47) : S50000x256.Idx → EReal)
      = Cert.ReferenceIdeal.Read.val_main_v59 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (h2_layer m ρ c (h1_ref m ρ c)).trans (Cert.ReferenceIdeal.RefValue.layer2_eq (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

/-- The third region's output column is the piecewise scorer of the arrays the region found. -/
theorem out_headT :
    (W6 m ρ c (Proc.devRef .tc main_v76) : S500000x1.Idx → EReal)
      = headT 500000 (W5 m ρ c (Proc.devRef .tc main_v54)) (W5 m ρ c (Proc.devRef .tc main_v61))
          (W5 m ρ c (Proc.devRef .tc main_arg4)) (W5 m ρ c (Proc.devRef .tc main_v65))
          (W5 m ρ c (Proc.devRef .tc main_v67)) (W5 m ρ c (Proc.devRef .tc main_v69)) (W5 m ρ c (Proc.devRef .tc main_v71))
          (W5 m ρ c (Proc.devRef .tc main_v74)) (W5 m ρ c (Proc.devRef .tc main_v73)) (W5 m ρ c (Proc.devRef .tc main_v75)) :=
  (W6_arr m ρ c 10).trans (Cert.KernelIdeal.Head.final (V5 m ρ) c)

/-- THE KERNEL'S RESULT is the reference's function of the kernel's arguments. -/
theorem kernel_value :
    (W7 m ρ c (Proc.devRef .tc main_v77) : S500000.Idx → EReal)
      = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  obtain ⟨p, rfl⟩ : ∃ p : Fin 500000, i = ix1 p := ⟨i 0, eq_ix1 i⟩
  rw [out3 m ρ c p, out_headT m ρ c, Cert.ReferenceIdeal.RefValue.head_eq]
  show headTAt 500000 _ _ _ _ _ _ _ _ _ _ p (0 : Fin 1) = headAt 500000 _ _ _ _ _ _ p
  exact headTAt_eq 500000 _ _ _ _ _ _ _ _ _ _ _ _ _ _ _ _
    (fun q k => (Cert.ReferenceIdeal.RefValue.concat_u (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) q k).trans
      (congrFun (hu2 m ρ c (h2_ref m ρ c)).symm (ix2 q k)))
    (fun q k => (Cert.ReferenceIdeal.RefValue.concat_v (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) q k).trans
      (congrFun (hv2 m ρ c (h2_ref m ρ c)).symm (ix2 q k)))
    (fun q k => (Cert.ReferenceIdeal.RefValue.concat_e (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) q k).trans
      (congrFun (ea2 m ρ c).symm (ix2 q k)))
    (w1u2 m ρ c) (w1v2 m ρ c) (w1e2 m ρ c) (b12 m ρ c) (w22 m ρ c) (b22 m ρ c) (le2 m ρ c) p (0 : Fin 1)

end Cert.KernelIdeal.Glue

end
-- ==== Proof.lean ====
/-
  The certificate of a two-layer mean-aggregation graph network with an edge scorer: a kernel of three grid-launched
  regions (two graph-convolution layers, then a two-layer perceptron over pairs of nodes) among host gathers and
  scatter-adds, against a plain array-language reference.

  FRAMES.  Each program, from any memory whose float inputs are finite (the precondition is never opened), runs to the
  end without a fault and leaves its sixteen argument arrays as launched: for the two kernel programs this is the
  launch-and-write-back argument over the three regions, region by region; for the reference it is its run as a straight
  line of host operations with the result dropped.

  PRESERVES.  The idealized kernel is the printed kernel read on the extended reals: no operation was rewritten.

  ALGEBRAIC.  On the extended reals (a change of float format is the identity, every operation exact) both programs
  compute, for every pair p,  le p + (Σ_j max(⟨z p, W1 j⟩ + b1 j, 0)·W2 j + b2),  z p the concatenation of the two
  second-layer rows the pair gathers and the pair's features, each layer being  max(⟨mean of neighbours, Wl j⟩ + b j +
  ⟨own row, Wr j⟩, 0).  The neighbour means (gather by source, scatter-add by target, divide by the in-degree floored at
  one) are the same host operations in both programs, applied to equal arrays, and are never opened.  The kernel differs
  in three ways that do not change a value: it adds each layer's bias after the two inner products instead of between
  them (commutativity and associativity of +), it holds the weights transposed (a renaming of indices), and it forms
  ⟨z p, W1 j⟩ as three inner products over the column ranges [0,256), [256,512), [512,528) (a finite sum split over a
  partition of its index range).  Each region writes its output array block by block over a one-dimensional grid; the
  blocks are disjoint restrictions of one whole-array function and cover the array.
-/
import proofs.«128267_j13993003450942_2_alg».proof.Defs
import proofs.«128267_j13993003450942_2_alg».proof.Proof.Gen.Kernel
import proofs.«128267_j13993003450942_2_alg».proof.Proof.Gen.Kernel.Skeleton
import proofs.«128267_j13993003450942_2_alg».proof.Proof.Gen.Kernel.Launch
import proofs.«128267_j13993003450942_2_alg».proof.Proof.Gen.Kernel.Points
import proofs.«128267_j13993003450942_2_alg».proof.Proof.Gen.Kernel.Frame
import proofs.«128267_j13993003450942_2_alg».proof.Proof.Gen.KernelIdeal
import proofs.«128267_j13993003450942_2_alg».proof.Proof.Gen.KernelIdeal.Skeleton
import proofs.«128267_j13993003450942_2_alg».proof.Proof.Gen.KernelIdeal.Launch
import proofs.«128267_j13993003450942_2_alg».proof.Proof.Gen.KernelIdeal.Points
import proofs.«128267_j13993003450942_2_alg».proof.Proof.Gen.KernelIdeal.Frame
import proofs.«128267_j13993003450942_2_alg».proof.Proof.Gen.ReferenceIdeal
import proofs.«128267_j13993003450942_2_alg».proof.Proof.Gen.ReferenceIdeal.Run
import proofs.«128267_j13993003450942_2_alg».proof.Proof.Gen.ReferenceIdeal.Read
import proofs.«128267_j13993003450942_2_alg».proof.Proof.Gen.Pre_finite_inputs
import proofs.«128267_j13993003450942_2_alg».proof.Proof.KernelRun
import proofs.«128267_j13993003450942_2_alg».proof.Proof.Final
import Idealize.ShloMosaic.Adequacy
import Idealize.ShloMosaic.Init

noncomputable section

namespace Cert.Proof

open Idealize.ShloMosaic Idealize.ShloMosaic.TcCoe Idealize.SL.Sem

/-- The printed kernel runs, faults nowhere, and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, a straight line of host operations, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories agreeing on the arguments both programs end with the same result array: the kernel's is the
    reference's function of the kernel's arguments, and the reference's arguments are the kernel's. -/
theorem algebraic : Cert.algebraic_KernelIdeal_ReferenceIdeal := by
  intro m ρ m' ρ' _ hagree
  refine ⟨fun c => Cert.KernelIdeal.Gen.W7 m ρ c (Proc.devRef .tc Cert.KernelIdeal.main_v77),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v87_eq, h0, h1, h2, h3, h4, h5, h6, h7, h8, h9, h10, h11, h12, h13, h14, h15]
  exact (Cert.KernelIdeal.Glue.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
